-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x95 : Shape := ⟨2, ![100000, 95]⟩
abbrev S1600000 : Shape := ⟨1, ![1600000]⟩
abbrev S100000 : Shape := ⟨1, ![100000]⟩
abbrev S95x128 : Shape := ⟨2, ![95, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S_ : Shape := ⟨0, ![]⟩

class Facts : Prop where
  bcast_S_S100000x95 : S_.BroadcastsInDim S100000x95 (![] : Fin 0 → Fin S100000x95.rank)
  reducesTo_S100000x95_S_d0_1 : S100000x95.ReducesTo [0, 1] S_
  h_S_ : 0 < S_.numel
  bcast_S_S95x128 : S_.BroadcastsInDim S95x128 (![] : Fin 0 → Fin S95x128.rank)
  reducesTo_S95x128_S_d0_1 : S95x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg10 : FVec F S128x16 .f32) (main_arg11 : FVec F S16 .f32) (main_v33 : IVec S_ 1) : IVec S_ 1 :=
  let main_v34 : FVec F S128x16 .f32 := Host.absf main_arg10
  let main_cst_12 : FVec F S_ .f32 := constant S_ .f32 0x7F800000#32
  let main_v35 : FVec F S128x16 .f32 := broadcastInDim S128x16 ![] bcast_S_S128x16 main_cst_12
  let main_v36 : IVec S128x16 1 := cmpf .olt main_v34 main_v35
  let main_c_13 : IVec S_ 1 := constantI S_ 1 1#1
  let main_v37 : IVec S_ 1 := (fun x v => Host.reduce IntOp.andi x v reducesTo_S128x16_S_d0_1 h_S_) main_v36 main_c_13
  let main_v38 : IVec S_ 1 := andi main_v33 main_v37
  let main_v39 : FVec F S16 .f32 := Host.absf main_arg11
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg7 : FVec F S128 .f32) (main_arg8 : FVec F S128x128 .f32) (main_arg9 : FVec F S128 .f32) (main_arg10 : FVec F S128x16 .f32) (main_arg11 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_v33

def fn {F : FTy → Type} [FloatOps F] (main_arg0 : FVec F S100000x95 .f32) (main_arg1 : IVec S1600000 32) (main_arg2 : IVec S1600000 32) (main_arg3 : IVec S100000 32) (main_arg4 : FVec F S95x128 .f32) (main_arg5 : FVec F S128 .f32) (main_arg6 : FVec F S128x128 .f32) (main_arg7 : FVec F S128 .f32) (main_arg8 : FVec F S128x128 .f32) (main_arg9 : FVec F S128 .f32) (main_arg10 : FVec F S128x16 .f32) (main_arg11 : FVec F S16 .f32) : IVec S_ 1 :=
  let main_v0 : FVec F S100000x95 .f32 := Host.absf main_arg0
  let main_cst : FVec F S_ .f32 := constant S_ .f32 0x7F800000#32
  let main_v1 : FVec F S100000x95 .f32 := broadcastInDim S100000x95 ![] bcast_S_S100000x95 main_cst
  let main_v2 : IVec S100000x95 1 := cmpf .olt main_v0 main_v1
  let main_c : IVec S_ 1 := constantI S_ 1 1#1
  let main_v3 : IVec S_ 1 := (fun x v => Host.reduce IntOp.andi x v reducesTo_S100000x95_S_d0_1 h_S_) main_v2 main_c
  let main_v4 : FVec F S95x128 .f32 := Host.absf main_arg4
  let main_cst_0 : FVec F S_ .f32 := constant S_ .f32 0x7F800000#32
  let main_v5 : FVec F S95x128 .f32 := broadcastInDim S95x128 ![] bcast_S_S95x128 main_cst_0
  let main_v6 : IVec S95x128 1 := cmpf .olt main_v4 main_v5
  let main_c_1 : IVec S_ 1 := constantI S_ 1 1#1
  let main_v7 : IVec S_ 1 := (fun x v => Host.reduce IntOp.andi x v reducesTo_S95x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_v13 main_v16
-- ==== Kernel.lean ====
abbrev S100000x95 : Shape := ⟨2, ![100000, 95]⟩
abbrev S1600000 : Shape := ⟨1, ![1600000]⟩
abbrev S100000 : Shape := ⟨1, ![100000]⟩
abbrev S95x128 : Shape := ⟨2, ![95, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S_ : Shape := ⟨0, ![]⟩
abbrev S1600000x1 : Shape := ⟨2, ![1600000, 1]⟩
abbrev S100000x1 : Shape := ⟨2, ![100000, 1]⟩
abbrev S100000x2 : Shape := ⟨2, ![100000, 2]⟩
abbrev S5000x95 : Shape := ⟨2, ![5000, 95]⟩
abbrev S5000x1 : Shape := ⟨2, ![5000, 1]⟩
abbrev S1600000x95 : Shape := ⟨2, ![1600000, 95]⟩
abbrev S1x128 : Shape := ⟨2, ![1, 128]⟩
abbrev S100000x128 : Shape := ⟨2, ![100000, 128]⟩
abbrev S5000x2 : Shape := ⟨2, ![5000, 2]⟩
abbrev S5000x128 : Shape := ⟨2, ![5000, 128]⟩
abbrev S1600000x128 : Shape := ⟨2, ![1600000, 128]⟩
abbrev S1000x128 : Shape := ⟨2, ![1000, 128]⟩
abbrev S1000 : Shape := ⟨1, ![1000]⟩
abbrev S1000x1 : Shape := ⟨2, ![1000, 1]⟩
abbrev S1x16 : Shape := ⟨2, ![1, 16]⟩
abbrev S1000x16 : Shape := ⟨2, ![1000, 16]⟩

abbrev nBuf : Space → Nat
  | .hbm => 101
  | .vmem => 35
  | .smem => 0
  | _ => 0

abbrev bufTy : (tb : Table) → Fin (tcTables nBuf tb) → BufTy
  | .hbm, ⟨0, _⟩ => ⟨S100000x95, .f32⟩
  | .hbm, ⟨1, _⟩ => ⟨S1600000, .i32⟩
  | .hbm, ⟨2, _⟩ => ⟨S1600000, .i32⟩
  | .hbm, ⟨3, _⟩ => ⟨S100000, .i32⟩
  | .hbm, ⟨4, _⟩ => ⟨S95x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x16, .f32⟩
  | .hbm, ⟨11, _⟩ => ⟨S16, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x1, .f32⟩
  | .hbm, ⟨36, _⟩ => ⟨S100000x2, .f32⟩
  | .hbm, ⟨37, _⟩ => ⟨S100000x1, .f32⟩
  | .hbm, ⟨38, _⟩ => ⟨S100000x95, .bf16⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x95, .bf16⟩
  | .hbm, ⟨48, _⟩ => ⟨S1600000x95, .f32⟩
  | .hbm, ⟨49, _⟩ => ⟨S_, .f32⟩
  | .hbm, ⟨50, _⟩ => ⟨S100000x95, .f32⟩
  | .hbm, ⟨51, _⟩ => ⟨S1600000x1, .i32⟩
  | .hbm, ⟨52, _⟩ => ⟨S100000x95, .f32⟩
  | .hbm, ⟨53, _⟩ => ⟨S1x128, .f32⟩
  | .hbm, ⟨54, _⟩ => ⟨S100000x128, .bf16⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x128, .bf16⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S1x128, .f32⟩
  | .hbm, ⟨70, _⟩ => ⟨S100000x128, .bf16⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x128, .bf16⟩
  | .hbm, ⟨80, _⟩ => ⟨S1600000x128, .f32⟩
  | .hbm, ⟨81, _⟩ => ⟨S_, .f32⟩
  | .hbm, ⟨82, _⟩ => ⟨S100000x128, .f32⟩
  | .hbm, ⟨83, _⟩ => ⟨S1600000x1, .i32⟩
  | .hbm, ⟨84, _⟩ => ⟨S100000x128, .f32⟩
  | .hbm, ⟨85, _⟩ => ⟨S100000x1, .f32⟩
  | .hbm, ⟨86, _⟩ => ⟨S1x128, .f32⟩
  | .hbm, ⟨87, _⟩ => ⟨S100000x128, .f32⟩
  | .hbm, ⟨88, _⟩ => ⟨S_, .f32⟩
  | .hbm, ⟨89, _⟩ => ⟨S1000x128, .f32⟩
  | .hbm, ⟨90, _⟩ => ⟨S100000x1, .i32⟩
  | .hbm, ⟨91, _⟩ => ⟨S1000x128, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S1000, .f32⟩
  | .hbm, ⟨96, _⟩ => ⟨S100000x1, .i32⟩
  | .hbm, ⟨97, _⟩ => ⟨S1000, .f32⟩
  | .hbm, ⟨98, _⟩ => ⟨S1000x1, .f32⟩
  | .hbm, ⟨99, _⟩ => ⟨S1x16, .f32⟩
  | .hbm, ⟨100, _⟩ => ⟨S1000x16, .f32⟩
  | .local _ .vmem, ⟨0, _⟩ => ⟨S5000x95, .f32⟩
  | .local _ .vmem, ⟨1, _⟩ => ⟨S5000x95, .f32⟩
  | .local _ .vmem, ⟨2, _⟩ => ⟨S5000x1, .f32⟩
  | .local _ .vmem, ⟨3, _⟩ => ⟨S5000x1, .f32⟩
  | .local _ .vmem, ⟨4, _⟩ => ⟨S5000x95, .bf16⟩
  | .local _ .vmem, ⟨5, _⟩ => ⟨S5000x95, .bf16⟩
  | .local _ .vmem, ⟨6, _⟩ => ⟨S5000x95, .f32⟩
  | .local _ .vmem, ⟨7, _⟩ => ⟨S5000x95, .f32⟩
  | .local _ .vmem, ⟨8, _⟩ => ⟨S5000x2, .f32⟩
  | .local _ .vmem, ⟨9, _⟩ => ⟨S5000x2, .f32⟩
  | .local _ .vmem, ⟨10, _⟩ => ⟨S95x128, .f32⟩
  | .local _ .vmem, ⟨11, _⟩ => ⟨S1x128, .f32⟩
  | .local _ .vmem, ⟨12, _⟩ => ⟨S5000x128, .bf16⟩
  | .local _ .vmem, ⟨13, _⟩ => ⟨S5000x128, .bf16⟩
  | .local _ .vmem, ⟨14, _⟩ => ⟨S5000x128, .f32⟩
  | .local _ .vmem, ⟨15, _⟩ => ⟨S5000x128, .f32⟩
  | .local _ .vmem, ⟨16, _⟩ => ⟨S5000x2, .f32⟩
  | .local _ .vmem, ⟨17, _⟩ => ⟨S5000x2, .f32⟩
  | .local _ .vmem, ⟨18, _⟩ => ⟨S128x128, .f32⟩
  | .local _ .vmem, ⟨19, _⟩ => ⟨S1x128, .f32⟩
  | .local _ .vmem, ⟨20, _⟩ => ⟨S5000x128, .bf16⟩
  | .local _ .vmem, ⟨21, _⟩ => ⟨S5000x128, .bf16⟩
  | .local _ .vmem, ⟨22, _⟩ => ⟨S5000x128, .f32⟩
  | .local _ .vmem, ⟨23, _⟩ => ⟨S5000x128, .f32⟩
  | .local _ .vmem, ⟨24, _⟩ => ⟨S5000x1, .f32⟩
  | .local _ .vmem, ⟨25, _⟩ => ⟨S5000x1, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S1000x128, .f32⟩
  | .local _ .vmem, ⟨31, _⟩ => ⟨S1000x1, .f32⟩
  | .local _ .vmem, ⟨32, _⟩ => ⟨S128x16, .f32⟩
  | .local _ .vmem, ⟨33, _⟩ => ⟨S1x16, .f32⟩
  | .local _ .vmem, ⟨34, _⟩ => ⟨S1000x16, .f32⟩
  | _, _ => ⟨S100000x95, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_3 : Ref sig .tc := ⟨.hbm, 25, rfl⟩
abbrev main_v9 : Ref sig .tc := ⟨.hbm, 26, rfl⟩
abbrev main_v10 : Ref sig .tc := ⟨.hbm, 27, rfl⟩
abbrev main_cst_4 : Ref sig .tc := ⟨.hbm, 28, rfl⟩
abbrev main_v11 : Ref sig .tc := ⟨.hbm, 29, rfl⟩
abbrev main_v12 : Ref sig .tc := ⟨.hbm, 30, rfl⟩
abbrev main_cst_5 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c : Ref sig .tc := ⟨.hbm, 39, rfl⟩
abbrev main_v20 : Ref sig .tc := ⟨.hbm, 40, rfl⟩
abbrev main_v21 : Ref sig .tc := ⟨.hbm, 41, rfl⟩
abbrev main_c_6 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_8 : Ref sig .tc := ⟨.hbm, 55, rfl⟩
abbrev main_v33 : Ref sig .tc := ⟨.hbm, 56, rfl⟩
abbrev main_v34 : Ref sig .tc := ⟨.hbm, 57, rfl⟩
abbrev main_c_9 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_10 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_11 : Ref sig .tc := ⟨.hbm, 71, rfl⟩
abbrev main_v46 : Ref sig .tc := ⟨.hbm, 72, rfl⟩
abbrev main_v47 : Ref sig .tc := ⟨.hbm, 73, rfl⟩
abbrev main_c_12 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_13 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_14 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_15 : Ref sig .tc := ⟨.hbm, 92, rfl⟩
abbrev main_v63 : Ref sig .tc := ⟨.hbm, 93, rfl⟩
abbrev main_cst_16 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc4_stg0_0 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem4_1 : DmaSem sig := 29
abbrev cc4_sem0_0 : DmaSem sig := 30
abbrev cc4_sem1_0 : DmaSem sig := 31
abbrev cc4_sem2_0 : DmaSem sig := 32
abbrev cc4_sem3_0 : DmaSem sig := 33
abbrev cc4_sem4_0 : DmaSem sig := 34

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x95 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x95 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x95 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S95x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1000x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S1000x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x16 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1000x16 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  concatenates_S100000x1_S100000x1_S100000x2_d1 : Shape.Concatenates [S100000x1, S100000x1] S100000x2 1
  shapeCasts_S100000_S100000x1 : S100000.ShapeCasts S100000x1
  inb_S5000x95_S5000x95_0_0 : ∀ a, (![0, 0] : Fin 2 → Nat) a + S5000x95.size a ≤ S5000x95.size a
  h_S5000x95 : 0 < S5000x95.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x95 : S5000x1.Broadcasts S5000x95
  bitsLt_bf16_f32 : FTy.bits .bf16 < FTy.bits .f32
  packedbf16_S5000x95_S5000x95_0_0 : (Rect.unit (s := S5000x95) ![0, 0] S5000x95.size inb_S5000x95_S5000x95_0_0).PackedRows (EltTy.packing .bf16)
  bcast_S_S100000x95 : S_.BroadcastsInDim S100000x95 (![] : Fin 0 → Fin S100000x95.rank)
  shapeCasts_S128_S1x128 : S128.ShapeCasts S1x128
  inb_S5000x2_S5000x1_0_0 : ∀ a, (![0, 0] : Fin 2 → Nat) a + S5000x1.size a ≤ S5000x2.size a
  inb_S5000x2_S5000x1_0_1 : ∀ a, (![0, 1] : Fin 2 → Nat) a + S5000x1.size a ≤ S5000x2.size a
  shapeCasts_S5000x95_S5000x95 : S5000x95.ShapeCasts S5000x95
  inb_S95x128_S95x128_0_0 : ∀ a, (![0, 0] : Fin 2 → Nat) a + S95x128.size a ≤ S95x128.size a
  h_S95x128 : 0 < S95x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bcast_S_S1000x128 : S_.BroadcastsInDim S1000x128 (![] : Fin 0 → Fin S1000x128.rank)
  bcast_S_S1000 : S_.BroadcastsInDim S1000 (![] : Fin 0 → Fin S1000.rank)
  shapeCasts_S1000_S1000x1 : S1000.ShapeCasts S1000x1
  shapeCasts_S16_S1x16 : S16.ShapeCasts S1x16
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  broadcasts_S1000x1_S1000x128 : S1000x1.Broadcasts S1000x128
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1000x16 : S1x16.Broadcasts S1000x16
  inb_S1000x16_S1000x16_0_0 : ∀ a, (![0, 0] : Fin 2 → Nat) a + S1000x16.size a ≤ S1000x16.size a
  h_S1000x16 : 0 < S1000x16.numel
  scatter_S100000_S1600000x1_S1600000_n_0_0_1_wf : ScatterDims.WF S100000 S1600000x1 S1600000 [] [0] [0] 1
  gather_S100000x95_S1600000x1_S1600000x95_1_0_n_n_0_1_195_wf : GatherDims.WF S100000x95 S1600000x1 S1600000x95 [1] [0] [] [0] [] 1 ![1, 95]
  scatter_S100000x95_S1600000x1_S1600000x95_1_0_0_1_wf : ScatterDims.WF S100000x95 S1600000x1 S1600000x95 [1] [0] [0] 1
  dot_S5000x95_S95x128_S5000x128_1_0_0_1_n_n_wf : DotDims.WF S5000x95 S95x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S1000x128_S100000x1_S100000x128_1_0_0_1_wf : ScatterDims.WF S1000x128 S100000x1 S100000x128 [1] [0] [0] 1
  scatter_S1000_S100000x1_S100000_n_0_0_1_wf : ScatterDims.WF S1000 S100000x1 S100000 [] [0] [0] 1
  dot_S1000x128_S128x16_S1000x16_1_0_0_1_n_n_wf : DotDims.WF S1000x128 S128x16 S1000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x95.size a ≤ S100000x95.size a
  hwx0_0 : ∀ i : grid0.Coords, EltTy.bits .f32 = 32 ∨ (Rect.block (s := S100000x95) S5000x95.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x95.size a ≤ S100000x95.size a
  hwx0_2 : ∀ i : grid0.Coords, EltTy.bits .bf16 = 32 ∨ (Rect.block (s := S100000x95) S5000x95.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x95.size a ≤ S100000x95.size a
  hwx1_0 : ∀ i : grid1.Coords, EltTy.bits .f32 = 32 ∨ (Rect.block (s := S100000x95) S5000x95.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x2.size a ≤ S100000x2.size a
  hwx1_1 : ∀ i : grid1.Coords, EltTy.bits .f32 = 32 ∨ (Rect.block (s := S100000x2) S5000x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S95x128.size a ≤ S95x128.size a
  hwx1_2 : ∀ i : grid1.Coords, EltTy.bits .f32 = 32 ∨ (Rect.block (s := S95x128) S95x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .bf16 = 32 ∨ (Rect.block (s := S100000x128) S5000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x2.size a ≤ S100000x2.size a
  hwx2_1 : ∀ i : grid2.Coords, EltTy.bits .f32 = 32 ∨ (Rect.block (s := S100000x2) S5000x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .bf16 = 32 ∨ (Rect.block (s := S100000x128) S5000x128.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S1000x128.size a
  hwx4_0 : ∀ i : grid4.Coords, EltTy.bits .f32 = 32 ∨ (Rect.block (s := S1000x128) S1000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1000x1.size a ≤ S1000x1.size a
  hwx4_1 : ∀ i : grid4.Coords, EltTy.bits .f32 = 32 ∨ (Rect.block (s := S1000x1) S1000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x16.size a ≤ S128x16.size a
  hwx4_2 : ∀ i : grid4.Coords, EltTy.bits .f32 = 32 ∨ (Rect.block (s := S128x16) S128x16.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x16.size a ≤ S1x16.size a
  hwx4_3 : ∀ i : grid4.Coords, EltTy.bits .f32 = 32 ∨ (Rect.block (s := S1x16) S1x16.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1000x16.size a ≤ S1000x16.size a
  hwx4_4 : ∀ i : grid4.Coords, EltTy.bits .f32 = 32 ∨ (Rect.block (s := S1000x16) S1000x16.size (cc4_transform_4 i) (hinb4_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x95_S1600000x1_S1600000x95_1_0_n_n_0_1_195 : GatherDims S100000x95 S1600000x1 S1600000x95 where
  offsetDims := [1]
  collapsedSliceDims := [0]
  operandBatchingDims := []
  startIndicesBatchingDims := []
  startIndexMap := [0]
  indexVectorDim := 1
  sliceSizes := ![1, 95]
  wf := gather_S100000x95_S1600000x1_S1600000x95_1_0_n_n_0_1_195_wf
def scatter_S100000x95_S1600000x1_S1600000x95_1_0_0_1 : ScatterDims S100000x95 S1600000x1 S1600000x95 where
  updateWindowDims := [1]
  insertedWindowDims := [0]
  scatterDimsToOperandDims := [0]
  indexVectorDim := 1
  wf := scatter_S100000x95_S1600000x1_S1600000x95_1_0_0_1_wf
def dot_S5000x95_S95x128_S5000x128_1_0_0_1_n_n : DotDims S5000x95 S95x128 S5000x128 where
  lhsContracting := [1]
  rhsContracting := [0]
  lhsNonContracting := [0]
  rhsNonContracting := [1]
  lhsBatch := []
  rhsBatch := []
  wf := dot_S5000x95_S95x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S1000x128_S100000x1_S100000x128_1_0_0_1 : ScatterDims S1000x128 S100000x1 S100000x128 where
  updateWindowDims := [1]
  insertedWindowDims := [0]
  scatterDimsToOperandDims := [0]
  indexVectorDim := 1
  wf := scatter_S1000x128_S100000x1_S100000x128_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x128_S128x16_S1000x16_1_0_0_1_n_n : DotDims S1000x128 S128x16 S1000x16 where
  lhsContracting := [1]
  rhsContracting := [0]
  lhsNonContracting := [0]
  rhsNonContracting := [1]
  lhsBatch := []
  rhsBatch := []
  wf := dot_S1000x128_S128x16_S1000x16_1_0_0_1_n_n_wf

abbrev win0_0 : Pipeline.Window sig grid0 :=
  Pipeline.Window.ofSpec (Memref.whole main_arg0) S5000x95.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S5000x95.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v30) S5000x95.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S95x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x2.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v56) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v62) S1000x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v67) S1000x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg10) S128x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v68) S1x16.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v69) S1000x16.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S100000x95 : Shape := ⟨2, ![100000, 95]⟩
abbrev S1600000 : Shape := ⟨1, ![1600000]⟩
abbrev S100000 : Shape := ⟨1, ![100000]⟩
abbrev S95x128 : Shape := ⟨2, ![95, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S_ : Shape := ⟨0, ![]⟩
abbrev S1600000x1 : Shape := ⟨2, ![1600000, 1]⟩
abbrev S100000x1 : Shape := ⟨2, ![100000, 1]⟩
abbrev S1600000x95 : Shape := ⟨2, ![1600000, 95]⟩
abbrev S100000x128 : Shape := ⟨2, ![100000, 128]⟩
abbrev S1x128 : Shape := ⟨2, ![1, 128]⟩
abbrev S1600000x128 : Shape := ⟨2, ![1600000, 128]⟩
abbrev S1000x128 : Shape := ⟨2, ![1000, 128]⟩
abbrev S1000 : Shape := ⟨1, ![1000]⟩
abbrev S1000x1 : Shape := ⟨2, ![1000, 1]⟩
abbrev S1000x16 : Shape := ⟨2, ![1000, 16]⟩
abbrev S1x16 : Shape := ⟨2, ![1, 16]⟩

abbrev nBuf : Space → Nat
  | .hbm => 135
  | .vmem => 0
  | .smem => 0
  | _ => 0

abbrev hbmTy0_0 (i : Nat) : BufTy := match i % 128 with
  | 0 => ⟨S100000x95, .f32⟩
  | 1 => ⟨S1600000, .i32⟩
  | 2 => ⟨S1600000, .i32⟩
  | 3 => ⟨S100000, .i32⟩
  | 4 => ⟨S95x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x16, .f32⟩
  | 11 => ⟨S16, .f32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S_, .f32⟩
  | 20 => ⟨S100000, .f32⟩
  | 21 => ⟨S100000, .f32⟩
  | 22 => ⟨S_, .f32⟩
  | 23 => ⟨S100000, .f32⟩
  | 24 => ⟨S1600000x1, .i32⟩
  | 25 => ⟨S100000, .f32⟩
  | 26 => ⟨S_, .f32⟩
  | 27 => ⟨S_, .f32⟩
  | 28 => ⟨S100000, .f32⟩
  | 29 => ⟨S100000, .f32⟩
  | 30 => ⟨S_, .f32⟩
  | 31 => ⟨S100000, .f32⟩
  | 32 => ⟨S100000, .f32⟩
  | 33 => ⟨S_, .f32⟩
  | 34 => ⟨S100000, .f32⟩
  | 35 => ⟨S100000, .f32⟩
  | 36 => ⟨S100000x1, .f32⟩
  | 37 => ⟨S100000x95, .f32⟩
  | 38 => ⟨S100000x95, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x95, .f32⟩
  | 48 => ⟨S_, .f32⟩
  | 49 => ⟨S100000x95, .f32⟩
  | 50 => ⟨S1600000x1, .i32⟩
  | 51 => ⟨S100000x95, .f32⟩
  | 52 => ⟨S100000x1, .f32⟩
  | 53 => ⟨S100000x95, .f32⟩
  | 54 => ⟨S100000x95, .f32⟩
  | 55 => ⟨S100000x128, .f32⟩
  | 56 => ⟨S1x128, .f32⟩
  | 57 => ⟨S100000x128, .f32⟩
  | 58 => ⟨S100000x128, .f32⟩
  | 59 => ⟨S_, .f32⟩
  | 60 => ⟨S100000x128, .f32⟩
  | 61 => ⟨S100000x128, .f32⟩
  | 62 => ⟨S100000x1, .f32⟩
  | 63 => ⟨S100000x128, .f32⟩
  | 64 => ⟨S100000x128, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x128, .f32⟩
  | 74 => ⟨S_, .f32⟩
  | 75 => ⟨S100000x128, .f32⟩
  | 76 => ⟨S1600000x1, .i32⟩
  | 77 => ⟨S100000x128, .f32⟩
  | 78 => ⟨S100000x1, .f32⟩
  | 79 => ⟨S100000x128, .f32⟩
  | 80 => ⟨S100000x128, .f32⟩
  | 81 => ⟨S100000x128, .f32⟩
  | 82 => ⟨S1x128, .f32⟩
  | 83 => ⟨S100000x128, .f32⟩
  | 84 => ⟨S100000x128, .f32⟩
  | 85 => ⟨S_, .f32⟩
  | 86 => ⟨S100000x128, .f32⟩
  | 87 => ⟨S100000x128, .f32⟩
  | 88 => ⟨S100000x1, .f32⟩
  | 89 => ⟨S100000x128, .f32⟩
  | 90 => ⟨S100000x128, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x128, .f32⟩
  | 100 => ⟨S_, .f32⟩
  | 101 => ⟨S100000x128, .f32⟩
  | 102 => ⟨S1600000x1, .i32⟩
  | 103 => ⟨S100000x128, .f32⟩
  | 104 => ⟨S100000x1, .f32⟩
  | 105 => ⟨S100000x128, .f32⟩
  | 106 => ⟨S100000x128, .f32⟩
  | 107 => ⟨S100000x128, .f32⟩
  | 108 => ⟨S1x128, .f32⟩
  | 109 => ⟨S100000x128, .f32⟩
  | 110 => ⟨S100000x128, .f32⟩
  | 111 => ⟨S_, .f32⟩
  | 112 => ⟨S100000x128, .f32⟩
  | 113 => ⟨S100000x128, .f32⟩
  | 114 => ⟨S_, .f32⟩
  | 115 => ⟨S1000x128, .f32⟩
  | 116 => ⟨S100000x1, .i32⟩
  | 117 => ⟨S1000x128, .f32⟩
  | 118 => ⟨S_, .f32⟩
  | 119 => ⟨S100000, .f32⟩
  | 120 => ⟨S_, .f32⟩
  | 121 => ⟨S1000, .f32⟩
  | 122 => ⟨S100000x1, .i32⟩
  | 123 => ⟨S1000, .f32⟩
  | 124 => ⟨S_, .f32⟩
  | 125 => ⟨S_, .f32⟩
  | 126 => ⟨S1000, .f32⟩
  | 127 => ⟨S1000, .f32⟩
  | _ => ⟨S100000x95, .f32⟩

abbrev hbmTy0_1 (i : Nat) : BufTy := match i % 128 with
  | 0 => ⟨S1000x1, .f32⟩
  | 1 => ⟨S1000x128, .f32⟩
  | 2 => ⟨S1000x128, .f32⟩
  | 3 => ⟨S1000x16, .f32⟩
  | 4 => ⟨S1x16, .f32⟩
  | 5 => ⟨S1000x16, .f32⟩
  | 6 => ⟨S1000x16, .f32⟩
  | _ => ⟨S100000x95, .f32⟩

abbrev hbmTy (i : Nat) : BufTy := match i / 128 with
  | 0 => hbmTy0_0 i
  | 1 => hbmTy0_1 i
  | _ => ⟨S100000x95, .f32⟩

abbrev bufTy : (tb : Table) → Fin (tcTables nBuf tb) → BufTy
  | .hbm, ⟨i, _⟩ => hbmTy i
  | _, _ => ⟨S100000x95, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v4 : Ref sig .tc := ⟨.hbm, 21, rfl⟩
abbrev main_cst_2 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v8 : Ref sig .tc := ⟨.hbm, 29, rfl⟩
abbrev main_cst_4 : Ref sig .tc := ⟨.hbm, 30, rfl⟩
abbrev main_v9 : Ref sig .tc := ⟨.hbm, 31, rfl⟩
abbrev main_v10 : Ref sig .tc := ⟨.hbm, 32, rfl⟩
abbrev main_cst_5 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_c : Ref sig .tc := ⟨.hbm, 39, rfl⟩
abbrev main_v16 : Ref sig .tc := ⟨.hbm, 40, rfl⟩
abbrev main_v17 : Ref sig .tc := ⟨.hbm, 41, rfl⟩
abbrev main_c_6 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_7 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_call2_cst : Ref sig .tc := ⟨.hbm, 59, rfl⟩
abbrev main_call2_v0 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_c_8 : Ref sig .tc := ⟨.hbm, 65, rfl⟩
abbrev main_v37 : Ref sig .tc := ⟨.hbm, 66, rfl⟩
abbrev main_v38 : Ref sig .tc := ⟨.hbm, 67, rfl⟩
abbrev main_c_9 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_10 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_call3_cst : Ref sig .tc := ⟨.hbm, 85, rfl⟩
abbrev main_call3_v0 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_c_11 : Ref sig .tc := ⟨.hbm, 91, rfl⟩
abbrev main_v58 : Ref sig .tc := ⟨.hbm, 92, rfl⟩
abbrev main_v59 : Ref sig .tc := ⟨.hbm, 93, rfl⟩
abbrev main_c_12 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_13 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_call4_cst : Ref sig .tc := ⟨.hbm, 111, rfl⟩
abbrev main_call4_v0 : Ref sig .tc := ⟨.hbm, 112, rfl⟩
abbrev main_v75 : Ref sig .tc := ⟨.hbm, 113, rfl⟩
abbrev main_cst_14 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_15 : Ref sig .tc := ⟨.hbm, 118, rfl⟩
abbrev main_v79 : Ref sig .tc := ⟨.hbm, 119, rfl⟩
abbrev main_cst_16 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_cst_17 : Ref sig .tc := ⟨.hbm, 124, rfl⟩
abbrev main_call5_v0 : Ref sig .tc := ⟨.hbm, 125, rfl⟩
abbrev main_call5_v1 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x95_0_1 : S100000x1.BroadcastsInDim S100000x95 (![0, 1] : Fin 2 → Fin S100000x95.rank)
  bcast_S_S100000x95 : S_.BroadcastsInDim S100000x95 (![] : Fin 0 → Fin S100000x95.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S_S1000x128 : S_.BroadcastsInDim S1000x128 (![] : Fin 0 → Fin S1000x128.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  bcast_S16_S1x16_1 : S16.BroadcastsInDim S1x16 (![1] : Fin 1 → Fin S1x16.rank)
  bcast_S1x16_S1000x16_0_1 : S1x16.BroadcastsInDim S1000x16 (![0, 1] : Fin 2 → Fin S1000x16.rank)
  scatter_S100000_S1600000x1_S1600000_n_0_0_1_wf : ScatterDims.WF S100000 S1600000x1 S1600000 [] [0] [0] 1
  gather_S100000x95_S1600000x1_S1600000x95_1_0_n_n_0_1_195_wf : GatherDims.WF S100000x95 S1600000x1 S1600000x95 [1] [0] [] [0] [] 1 ![1, 95]
  scatter_S100000x95_S1600000x1_S1600000x95_1_0_0_1_wf : ScatterDims.WF S100000x95 S1600000x1 S1600000x95 [1] [0] [0] 1
  dot_S100000x95_S95x128_S100000x128_1_0_0_1_n_n_wf : DotDims.WF S100000x95 S95x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S1000x128_S100000x1_S100000x128_1_0_0_1_wf : ScatterDims.WF S1000x128 S100000x1 S100000x128 [1] [0] [0] 1
  scatter_S1000_S100000x1_S100000_n_0_0_1_wf : ScatterDims.WF S1000 S100000x1 S100000 [] [0] [0] 1
  dot_S1000x128_S128x16_S1000x16_1_0_0_1_n_n_wf : DotDims.WF S1000x128 S128x16 S1000x16 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x95_S1600000x1_S1600000x95_1_0_n_n_0_1_195 : GatherDims S100000x95 S1600000x1 S1600000x95 where
  offsetDims := [1]
  collapsedSliceDims := [0]
  operandBatchingDims := []
  startIndicesBatchingDims := []
  startIndexMap := [0]
  indexVectorDim := 1
  sliceSizes := ![1, 95]
  wf := gather_S100000x95_S1600000x1_S1600000x95_1_0_n_n_0_1_195_wf
def scatter_S100000x95_S1600000x1_S1600000x95_1_0_0_1 : ScatterDims S100000x95 S1600000x1 S1600000x95 where
  updateWindowDims := [1]
  insertedWindowDims := [0]
  scatterDimsToOperandDims := [0]
  indexVectorDim := 1
  wf := scatter_S100000x95_S1600000x1_S1600000x95_1_0_0_1_wf
def dot_S100000x95_S95x128_S100000x128_1_0_0_1_n_n : DotDims S100000x95 S95x128 S100000x128 where
  lhsContracting := [1]
  rhsContracting := [0]
  lhsNonContracting := [0]
  rhsNonContracting := [1]
  lhsBatch := []
  rhsBatch := []
  wf := dot_S100000x95_S95x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S1000x128_S100000x1_S100000x128_1_0_0_1 : ScatterDims S1000x128 S100000x1 S100000x128 where
  updateWindowDims := [1]
  insertedWindowDims := [0]
  scatterDimsToOperandDims := [0]
  indexVectorDim := 1
  wf := scatter_S1000x128_S100000x1_S100000x128_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x128_S128x16_S1000x16_1_0_0_1_n_n : DotDims S1000x128 S128x16 S1000x16 where
  lhsContracting := [1]
  rhsContracting := [0]
  lhsNonContracting := [0]
  rhsNonContracting := [1]
  lhsBatch := []
  rhsBatch := []
  wf := dot_S1000x128_S128x16_S1000x16_1_0_0_1_n_n_wf

class Facts : Prop extends Facts₀ where

variable [Facts]
-- ==== Proof.Spec.lean ====
/-
  The mathematics of a three-layer graph convolution with a mean pool and a linear classifier, stage by stage, as
  functions on the extended reals indexed over literal shapes. A node array has 100000 rows; a row of the input has 95
  features, a hidden row 128; there are 1000 graphs and 16 classes.

  * `scaleRows`: every row `r` of `x` multiplied by the row's weight `n r`.
  * `layerMid`: row `r` of the aggregate is weighted by `nd r`, multiplied into `W` (a sum over the feature axis), the
    bias added, the negative part cut off, and the row weighted again by `ns r` for the next layer.
  * `layerLast`: the same without the outgoing weight.
  * `poolClassify`: each graph's feature sums divided by its node count (at least one), multiplied into `Wc`, the bias added.

  The zero against which the negative part is cut and the one bounding the count are kept as their words' values.
-/
import Idealize.ShloMosaic.PureOps.Ideal
import Idealize.ShloMosaic.Lib.ValueIdx

noncomputable section

namespace Cert.GraphSpec

open Idealize.ShloMosaic Idealize.ShloMosaic.ValueIdx

abbrev Nodes : Shape := ⟨1, ![100000]⟩
abbrev NodesX95 : Shape := ⟨2, ![100000, 95]⟩
abbrev NodesX128 : Shape := ⟨2, ![100000, 128]⟩
abbrev W95x128 : Shape := ⟨2, ![95, 128]⟩
abbrev W128x128 : Shape := ⟨2, ![128, 128]⟩
abbrev W128x16 : Shape := ⟨2, ![128, 16]⟩
abbrev B128 : Shape := ⟨1, ![128]⟩
abbrev B16 : Shape := ⟨1, ![16]⟩
abbrev Graphs : Shape := ⟨1, ![1000]⟩
abbrev GraphsX128 : Shape := ⟨2, ![1000, 128]⟩
abbrev GraphsX16 : Shape := ⟨2, ![1000, 16]⟩

/-- The value of the all-zero single-precision word. -/
abbrev zeroW : EReal := Ideal.ofBits .f32 0x00000000#32
/-- The value of the single-precision word of one. -/
abbrev oneW : EReal := Ideal.ofBits .f32 0x3F800000#32

/-- Row `r` of `x` times the row's weight. -/
def scaleRowsAt (x : NodesX95.Idx → EReal) (n : Nodes.Idx → EReal) (r : Fin 100000) (q : Fin 95) : EReal :=
  x (ix2 r q) * n (ix1 r)
def scaleRows (x : NodesX95.Idx → EReal) (n : Nodes.Idx → EReal) : NodesX95.Idx → EReal :=
  fun i => scaleRowsAt x n (i 0) (i 1)

/-- A middle layer over 95 input features, at row `r` and output feature `q`. -/
def layerMid95At (agg : NodesX95.Idx → EReal) (nd ns : Nodes.Idx → EReal) (W : W95x128.Idx → EReal) (b : B128.Idx → EReal)
    (r : Fin 100000) (q : Fin 128) : EReal :=
  max ((∑ k : Fin 95, (agg (ix2 r k) * nd (ix1 r)) * W (ix2 k q)) + b (ix1 q)) zeroW * ns (ix1 r)
def layerMid95 (agg : NodesX95.Idx → EReal) (nd ns : Nodes.Idx → EReal) (W : W95x128.Idx → EReal) (b : B128.Idx → EReal) :
    NodesX128.Idx → EReal :=
  fun i => layerMid95At agg nd ns W b (i 0) (i 1)

/-- A middle layer over 128 input features, at row `r` and output feature `q`. -/
def layerMid128At (agg : NodesX128.Idx → EReal) (nd ns : Nodes.Idx → EReal) (W : W128x128.Idx → EReal) (b : B128.Idx → EReal)
    (r : Fin 100000) (q : Fin 128) : EReal :=
  max ((∑ k : Fin 128, (agg (ix2 r k) * nd (ix1 r)) * W (ix2 k q)) + b (ix1 q)) zeroW * ns (ix1 r)
def layerMid128 (agg : NodesX128.Idx → EReal) (nd ns : Nodes.Idx → EReal) (W : W128x128.Idx → EReal) (b : B128.Idx → EReal) :
    NodesX128.Idx → EReal :=
  fun i => layerMid128At agg nd ns W b (i 0) (i 1)

/-- The last layer: no outgoing weight. -/
def layerLastAt (agg : NodesX128.Idx → EReal) (nd : Nodes.Idx → EReal) (W : W128x128.Idx → EReal) (b : B128.Idx → EReal)
    (r : Fin 100000) (q : Fin 128) : EReal :=
  max ((∑ k : Fin 128, (agg (ix2 r k) * nd (ix1 r)) * W (ix2 k q)) + b (ix1 q)) zeroW
def layerLast (agg : NodesX128.Idx → EReal) (nd : Nodes.Idx → EReal) (W : W128x128.Idx → EReal) (b : B128.Idx → EReal) :
    NodesX128.Idx → EReal :=
  fun i => layerLastAt agg nd W b (i 0) (i 1)

/-- The mean over each graph's nodes, then the classifier, at graph `g` and class `q`. -/
def poolClassifyAt (sums : GraphsX128.Idx → EReal) (cnts : Graphs.Idx → EReal) (Wc : W128x16.Idx → EReal) (bc : B16.Idx → EReal)
    (g : Fin 1000) (q : Fin 16) : EReal :=
  (∑ k : Fin 128, Ideal.div (sums (ix2 g k)) (max (cnts (ix1 g)) oneW) * Wc (ix2 k q)) + bc (ix1 q)
def poolClassify (sums : GraphsX128.Idx → EReal) (cnts : Graphs.Idx → EReal) (Wc : W128x16.Idx → EReal) (bc : B16.Idx → EReal) :
    GraphsX16.Idx → EReal :=
  fun i => poolClassifyAt sums cnts Wc bc (i 0) (i 1)

end Cert.GraphSpec

end
-- ==== Proof.Region0.lean ====
/-
  The row-scaling region. The node array is cut into 20 blocks of 5000 rows; at block `t` the body multiplies row `p`
  of the feature block by the one entry of row `p` of the weight column's block. Row `p` of block `t` is row
  `5000 t + p` of the array, the blocks cover every row, so the output array is the input with row `r` times the
  weight of row `r`: `scaleRows`.
-/
import proofs.«112282_j74019466379909_2_alg».proof.Proof.Gen.KernelIdeal.Frame
import proofs.«112282_j74019466379909_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Stage

open Cert.KernelIdeal Cert.KernelIdeal.Gen Cert.GraphSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's arithmetic at one entry of the block: the feature times the row's weight. -/
theorem scalePay_at (x0 : Vec Ideal S5000x95 .f32) (x1 : Vec Ideal S5000x1 .f32) (p : Fin 5000) (q : Fin 95) :
    k0_pay1 (F := Ideal) x0 x1 (ix2 p q) = x0 (ix2 p q) * x1 (ix2 p 0) := by
  unfold k0_pay1
  rw [truncf_apply, mulf_apply, shapeCast_self]
  refine congrArg (x0 (ix2 p q) * ·) ?_
  exact broadcastTo_apply x1 broadcasts_S5000x1_S5000x95 (ix2 p q) (ix2 p 0) (fun a => by
    match a with
    | ⟨0, _⟩ => rfl
    | ⟨1, _⟩ => rfl)

/-- There are 20 grid points. -/
theorem lt20_0 : ∀ t : Fin cfg0.N, t.val < 20 := (by decide +kernel : ∀ t : Fin grid0.N, t.val < 20)

/-- Every window's block index at point `t` is `(t, 0)`. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row `p` of block `t`. -/
def row0 (t : Fin cfg0.N) (p : Fin 5000) : Fin 100000 := ⟨t.val * 5000 + p.val, by have := lt20_0 t; have := p.isLt; omega⟩

theorem emb0_0 (t : Fin cfg0.N) (p : Fin 5000) (q : Fin 95) :
    ((cfg0.win 0).blk t).view.emb (ix2 p q) = ix2 (row0 t p) q := by
  obtain ⟨e0, e1, -, -, -, -⟩ := idx0 t
  funext a; apply Fin.ext
  match a with
  | ⟨0, _⟩ => show win0_0.index t (0 : Fin 2) * 5000 + 1 * p.val = t.val * 5000 + p.val; omega
  | ⟨1, _⟩ => show win0_0.index t (1 : Fin 2) * 95 + 1 * q.val = q.val; omega

theorem emb0_1 (t : Fin cfg0.N) (p : Fin 5000) :
    ((cfg0.win 1).blk t).view.emb (ix2 p (0 : Fin 1)) = ix2 (row0 t p) (0 : Fin 1) := by
  obtain ⟨-, -, e0, e1, -, -⟩ := idx0 t
  funext a; apply Fin.ext
  match a with
  | ⟨0, _⟩ => show win0_1.index t (0 : Fin 2) * 5000 + 1 * p.val = t.val * 5000 + p.val; omega
  | ⟨1, _⟩ => show win0_1.index t (1 : Fin 2) * 1 + 1 * 0 = 0; omega

theorem emb0_2 (t : Fin cfg0.N) (p : Fin 5000) (q : Fin 95) :
    ((cfg0.win 2).blk t).view.emb (ix2 p q) = ix2 (row0 t p) q := by
  obtain ⟨-, -, -, -, e0, e1⟩ := idx0 t
  funext a; apply Fin.ext
  match a with
  | ⟨0, _⟩ => show win0_2.index t (0 : Fin 2) * 5000 + 1 * p.val = t.val * 5000 + p.val; omega
  | ⟨1, _⟩ => show win0_2.index t (1 : Fin 2) * 95 + 1 * q.val = q.val; omega

/-- What point `t` writes back is block `t` of the scaled array. -/
theorem scaleFlushed (c : Dev nD) (n : Nodes.Idx → EReal)
    (hn : ∀ r : Fin 100000, (V c main_v18 : S100000x1.Idx → EReal) (ix2 r (0 : Fin 1)) = n (ix1 r)) (t : Fin cfg0.N) :
    (dat0 (F := Ideal) V c).flushed 2 t
      = ((cfg0.win 2).blk t).view.read (Elt Ideal) (scaleRows (V c main_arg0) n) := by
  show (cfg0.win 2).cut (grid0.coords t) ((dat0 (F := Ideal) V c).after 2 t) = _
  rw [after0_2]
  unfold out0_2
  rw [View.canon_unit_zero hz]
  simp only [View.ld_unit_zero (S := S5000x95) hz, View.ld_unit_zero (S := S5000x1) hz]
  funext j
  obtain ⟨p, q, rfl⟩ : ∃ (p : Fin 5000) (q : Fin 95), j = ix2 p q := ⟨j 0, j 1, eq_ix2 j⟩
  show k0_pay1 (F := Ideal) (iblk0 V c 0 t) (iblk0 V c 1 t) (ix2 p q)
      = scaleRows (V c main_arg0) n (((cfg0.win 2).blk t).view.emb (ix2 p q))
  refine (scalePay_at _ _ p q).trans ?_
  have h0 : (iblk0 V c 0 t (ix2 p q) : EReal) = (V c main_arg0 : S100000x95.Idx → EReal) (ix2 (row0 t p) q) :=
    congrArg (V c main_arg0 : S100000x95.Idx → EReal) (emb0_0 t p q)
  have h1 : (iblk0 V c 1 t (ix2 p (0 : Fin 1)) : EReal) = n (ix1 (row0 t p)) :=
    (congrArg (V c main_v18 : S100000x1.Idx → EReal) (emb0_1 t p)).trans (hn _)
  rw [emb0_2]
  exact congrArg₂ (· * ·) h0 h1

/-- Membership in point `t`'s output block, coordinate by coordinate. -/
theorem scaleMem (t : Fin cfg0.N) (i : S100000x95.Idx) :
    i ∈ ((cfg0.win 2).blk t).view.set ↔ ∀ a : Fin 2, win0_2.index t a * S5000x95.size a ≤ (i a).val
      ∧ (i a).val < win0_2.index t a * S5000x95.size a + S5000x95.size a := by
  show i ∈ ((View.whole main_v19).slice (win0_2.rect t)).set ↔ _
  rw [View.set_slice_whole, Rect.mem_set_unit]
  exact Iff.rfl

/-- Row `r` lies in the block of point `r / 5000`: the blocks cover the array. -/
theorem scaleCover (i : S100000x95.Idx) :
    ∃ t : Fin cfg0.N, (cfg0.win 2).flush t = true ∧ i ∈ ((cfg0.win 2).blk t).view.set := by
  have hi0 : (i 0).val < 100000 := (i 0).isLt
  have hi1 : (i 1).val < 95 := (i 1).isLt
  have hN : cfg0.N = 20 := N_0
  let t : Fin cfg0.N := ⟨(i 0).val / 5000, by rw [hN]; omega⟩
  have htv : t.val = (i 0).val / 5000 := rfl
  obtain ⟨-, -, -, -, e0, e1⟩ := idx0 t
  refine ⟨t, flush0_2 t, ?_⟩
  rw [scaleMem]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 95 ≤ (i 1).val ∧ (i 1).val < win0_2.index t (1 : Fin 2) * 95 + 95; omega

/-- THE REGION'S OUTPUT ARRAY: the input with every row times its weight. -/
theorem scaleArr (c : Dev nD) (n : Nodes.Idx → EReal)
    (hn : ∀ r : Fin 100000, (V c main_v18 : S100000x1.Idx → EReal) (ix2 r (0 : Fin 1)) = n (ix1 r)) :
    (dat0 (F := Ideal) V c).arrAt 2 cfg0.N = scaleRows (V c main_arg0) n :=
  (dat0 (F := Ideal) V c).arrAt_eq_of_cover 2 _ (fun t _ => scaleFlushed V c n hn t) scaleCover

end Cert.KernelIdeal.Stage

end
-- ==== Proof.Region1.lean ====
/-
  A middle layer's region. The node array is cut into 20 blocks of 5000 rows; the weight matrix and the bias row are
  whole at every point. At block `t` the body weights row `p` of the aggregate by column 0 of the packed weights,
  multiplies it into the matrix (a sum over the 95 input features), adds the bias, cuts the negative part and weights
  the row by column 1. Row `p` of block `t` is row `5000 t + p` of the array and the blocks cover every row, so the
  output array is `layerMid95` of the aggregate, the two weight columns, the matrix and the bias.
-/
import proofs.«112282_j74019466379909_2_alg».proof.Proof.Gen.KernelIdeal.Frame
import proofs.«112282_j74019466379909_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Stage

open Cert.KernelIdeal Cert.KernelIdeal.Gen Cert.GraphSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz1 : (![0, 0] : Fin 2 → Nat) = fun _ => 0 := funext fun a => by fin_cases a <;> rfl

theorem dotL1_0 (i : S5000x128.Idx) (k : dot_S5000x95_S95x128_S5000x128_1_0_0_1_n_n.contr.Idx) : (dot_S5000x95_S95x128_S5000x128_1_0_0_1_n_n.lhsIdx i k 0).val = (i 0).val := by
  unfold DotDims.lhsIdx
  rw [dif_neg (show ¬(0 : Fin S5000x95.rank) ∈ dot_S5000x95_S95x128_S5000x128_1_0_0_1_n_n.lhsBatch by decide), dif_pos (show (0 : Fin S5000x95.rank) ∈ dot_S5000x95_S95x128_S5000x128_1_0_0_1_n_n.lhsNonContracting by decide)]
  rfl
theorem dotR1_1 (i : S5000x128.Idx) (k : dot_S5000x95_S95x128_S5000x128_1_0_0_1_n_n.contr.Idx) : (dot_S5000x95_S95x128_S5000x128_1_0_0_1_n_n.rhsIdx i k 1).val = (i 1).val := by
  unfold DotDims.rhsIdx
  rw [dif_neg (show ¬(1 : Fin S95x128.rank) ∈ dot_S5000x95_S95x128_S5000x128_1_0_0_1_n_n.rhsBatch by decide), dif_pos (show (1 : Fin S95x128.rank) ∈ dot_S5000x95_S95x128_S5000x128_1_0_0_1_n_n.rhsNonContracting by decide)]
  rfl

/-- The matrix unit's product into the zero accumulator, at row `p` and column `q`: the sum over the contracted axis. -/
theorem matmul1_at (L : FVec Ideal S5000x95 .bf16) (Rt : FVec Ideal S95x128 .bf16) (p : Fin 5000) (q : Fin 128) :
    matmul dot_S5000x95_S95x128_S5000x128_1_0_0_1_n_n none L Rt (constant S5000x128 .f32 0x00000000#32) (ix2 p q) = ∑ k : Fin 95, L (ix2 p k) * Rt (ix2 k q) := by
  simp only [matmul]
  rw [Ideal.matmul_constant_zero_apply, ← Equiv.sum_comp (contrEquiv1 dot_S5000x95_S95x128_S5000x128_1_0_0_1_n_n 95 rfl rfl).symm]
  refine Finset.sum_congr rfl fun k _ => ?_
  have hk := contrEquiv1_symm_val dot_S5000x95_S95x128_S5000x128_1_0_0_1_n_n 95 rfl rfl k
  have el : dot_S5000x95_S95x128_S5000x128_1_0_0_1_n_n.lhsIdx (ix2 p q) ((contrEquiv1 dot_S5000x95_S95x128_S5000x128_1_0_0_1_n_n 95 rfl rfl).symm k) = ix2 p k := funext fun a => Fin.ext (by
    match a with
    | ⟨0, _⟩ => exact dotL1_0 _ _
    | ⟨1, _⟩ => exact (dot_S5000x95_S95x128_S5000x128_1_0_0_1_n_n.lhsIdx_val_of_single rfl _ _).trans hk)
  have er : dot_S5000x95_S95x128_S5000x128_1_0_0_1_n_n.rhsIdx (ix2 p q) ((contrEquiv1 dot_S5000x95_S95x128_S5000x128_1_0_0_1_n_n 95 rfl rfl).symm k) = ix2 k q := funext fun a => Fin.ext (by
    match a with
    | ⟨0, _⟩ => exact (dot_S5000x95_S95x128_S5000x128_1_0_0_1_n_n.rhsIdx_val_of_single rfl _ _).trans hk
    | ⟨1, _⟩ => exact dotR1_1 _ _)
  rw [el, er]

/-- The body's arithmetic at one entry of the block. -/
theorem midPay1_at (v0 v2 : Vec Ideal S5000x1 .f32) (v4 : Vec Ideal S5000x95 .f32) (v9 : Vec Ideal S95x128 .f32) (v12 : Vec Ideal S1x128 .f32)
    (p : Fin 5000) (q : Fin 128) :
    k1_pay1 (F := Ideal) v0 v2 v4 v9 v12 (ix2 p q)
      = max ((∑ k : Fin 95, (v4 (ix2 p k) * v0 (ix2 p (0 : Fin 1))) * v9 (ix2 k q)) + v12 (ix2 (0 : Fin 1) q)) zeroW * v2 (ix2 p (0 : Fin 1)) := by
  unfold k1_pay1
  rw [truncf_apply, mulf_apply, maximumf_apply, addf_apply, broadcast_apply, matmul1_at]
  refine congrArg₂ (· * ·) (congrArg₂ max (congrArg₂ (· + ·) (Finset.sum_congr rfl fun k _ => ?_) ?_) rfl) ?_
  · rw [truncf_apply, truncf_apply, mulf_apply, shapeCast_self, shapeCast_self]
    refine congrArg (fun z => (v4 (ix2 p k) * z) * v9 (ix2 k q)) ?_
    exact broadcastTo_apply v0 broadcasts_S5000x1_S5000x95 (ix2 p k) (ix2 p (0 : Fin 1)) (fun a => by
      match a with
      | ⟨0, _⟩ => rfl
      | ⟨1, _⟩ => rfl)
  · rw [shapeCast_self]
    exact broadcastTo_apply v12 broadcasts_S1x128_S5000x128 (ix2 p q) (ix2 (0 : Fin 1) q) (fun a => by
      match a with
      | ⟨0, _⟩ => rfl
      | ⟨1, _⟩ => rfl)
  · rw [shapeCast_self]
    exact broadcastTo_apply v2 broadcasts_S5000x1_S5000x128 (ix2 p q) (ix2 p (0 : Fin 1)) (fun a => by
      match a with
      | ⟨0, _⟩ => rfl
      | ⟨1, _⟩ => rfl)

/-- There are 20 grid points. -/
theorem lt20_1 : ∀ t : Fin cfg1.N, t.val < 20 := (by decide +kernel : ∀ t : Fin grid1.N, t.val < 20)

/-- The row-blocked windows' block index at point `t` is `(t, 0)`; the matrix's and the bias's is `(0, 0)`. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `p` of block `t`. -/
def row1 (t : Fin cfg1.N) (p : Fin 5000) : Fin 100000 := ⟨t.val * 5000 + p.val, by have := lt20_1 t; have := p.isLt; omega⟩

theorem emb1_0 (t : Fin cfg1.N) (p : Fin 5000) (k : Fin 95) :
    ((cfg1.win 0).blk t).view.emb (ix2 p k) = ix2 (row1 t p) k := by
  obtain ⟨e0, e1, -⟩ := idx1 t
  funext a; apply Fin.ext
  match a with
  | ⟨0, _⟩ => show win1_0.index t (0 : Fin 2) * 5000 + 1 * p.val = t.val * 5000 + p.val; omega
  | ⟨1, _⟩ => show win1_0.index t (1 : Fin 2) * 95 + 1 * k.val = k.val; omega

/-- Column `j` of the packed weights' block, through the body's one-column load. -/
theorem emb1_1a (t : Fin cfg1.N) (p : Fin 5000) :
    ((cfg1.win 1).blk t).view.emb (r1_0.idx (ix2 p (0 : Fin 1))) = ix2 (row1 t p) (0 : Fin 2) := by
  obtain ⟨-, -, e0, e1, -⟩ := idx1 t
  funext a; apply Fin.ext
  match a with
  | ⟨0, _⟩ => show win1_1.index t (0 : Fin 2) * 5000 + 1 * (0 + 1 * p.val) = t.val * 5000 + p.val; omega
  | ⟨1, _⟩ => show win1_1.index t (1 : Fin 2) * 2 + 1 * (0 + 1 * 0) = 0; omega
theorem emb1_1b (t : Fin cfg1.N) (p : Fin 5000) :
    ((cfg1.win 1).blk t).view.emb (r1_1.idx (ix2 p (0 : Fin 1))) = ix2 (row1 t p) (1 : Fin 2) := by
  obtain ⟨-, -, e0, e1, -⟩ := idx1 t
  funext a; apply Fin.ext
  match a with
  | ⟨0, _⟩ => show win1_1.index t (0 : Fin 2) * 5000 + 1 * (0 + 1 * p.val) = t.val * 5000 + p.val; omega
  | ⟨1, _⟩ => show win1_1.index t (1 : Fin 2) * 2 + 1 * (1 + 1 * 0) = 1; omega

theorem emb1_2 (t : Fin cfg1.N) (k : Fin 95) (q : Fin 128) :
    ((cfg1.win 2).blk t).view.emb (ix2 k q) = ix2 k q := by
  obtain ⟨-, -, -, -, e0, e1, -⟩ := idx1 t
  funext a; apply Fin.ext
  match a with
  | ⟨0, _⟩ => show win1_2.index t (0 : Fin 2) * 95 + 1 * k.val = k.val; omega
  | ⟨1, _⟩ => show win1_2.index t (1 : Fin 2) * 128 + 1 * q.val = q.val; omega

theorem emb1_3 (t : Fin cfg1.N) (q : Fin 128) :
    ((cfg1.win 3).blk t).view.emb (ix2 (0 : Fin 1) q) = ix2 (0 : Fin 1) q := by
  obtain ⟨-, -, -, -, -, -, e0, e1, -⟩ := idx1 t
  funext a; apply Fin.ext
  match a with
  | ⟨0, _⟩ => show win1_3.index t (0 : Fin 2) * 1 + 1 * 0 = 0; omega
  | ⟨1, _⟩ => show win1_3.index t (1 : Fin 2) * 128 + 1 * q.val = q.val; omega

theorem emb1_4 (t : Fin cfg1.N) (p : Fin 5000) (q : Fin 128) :
    ((cfg1.win 4).blk t).view.emb (ix2 p q) = ix2 (row1 t p) q := by
  obtain ⟨-, -, -, -, -, -, -, -, e0, e1⟩ := idx1 t
  funext a; apply Fin.ext
  match a with
  | ⟨0, _⟩ => show win1_4.index t (0 : Fin 2) * 5000 + 1 * p.val = t.val * 5000 + p.val; omega
  | ⟨1, _⟩ => show win1_4.index t (1 : Fin 2) * 128 + 1 * q.val = q.val; omega

/-- What point `t` writes back is block `t` of the layer's array. -/
theorem midFlushed1 (c : Dev nD) (nd ns : Nodes.Idx → EReal) (b : B128.Idx → EReal)
    (hnd : ∀ r : Fin 100000, (V c main_v17 : S100000x2.Idx → EReal) (ix2 r (0 : Fin 2)) = nd (ix1 r))
    (hns : ∀ r : Fin 100000, (V c main_v17 : S100000x2.Idx → EReal) (ix2 r (1 : Fin 2)) = ns (ix1 r))
    (hb : ∀ q : Fin 128, (V c main_v31 : S1x128.Idx → EReal) (ix2 (0 : Fin 1) q) = b (ix1 q)) (t : Fin cfg1.N) :
    (dat1 (F := Ideal) V c).flushed 4 t
      = ((cfg1.win 4).blk t).view.read (Elt Ideal) (layerMid95 (V c main_v30) nd ns (V c main_arg4) b) := by
  show (cfg1.win 4).cut (grid1.coords t) ((dat1 (F := Ideal) V c).after 4 t) = _
  rw [after1_4]
  unfold out1_4
  rw [View.canon_unit_zero hz1]
  simp only [View.ld_unit_zero (S := S5000x95) hz1, View.ld_unit_zero (S := S95x128) hz1, View.ld_unit_zero (S := S1x128) hz1]
  funext j
  obtain ⟨p, q, rfl⟩ : ∃ (p : Fin 5000) (q : Fin 128), j = ix2 p q := ⟨j 0, j 1, eq_ix2 j⟩
  show k1_pay1 (F := Ideal) (View.ld (iblk1 V c 1 t) r1_0) (View.ld (iblk1 V c 1 t) r1_1) (iblk1 V c 0 t) (iblk1 V c 2 t) (iblk1 V c 3 t) (ix2 p q)
      = layerMid95 (V c main_v30) nd ns (V c main_arg4) b (((cfg1.win 4).blk t).view.emb (ix2 p q))
  refine (midPay1_at _ _ _ _ _ p q).trans ?_
  have h0 : ∀ k : Fin 95, (iblk1 V c 0 t (ix2 p k) : EReal) = (V c main_v30 : S100000x95.Idx → EReal) (ix2 (row1 t p) k) :=
    fun k => congrArg (V c main_v30 : S100000x95.Idx → EReal) (emb1_0 t p k)
  have h1a : (View.ld (iblk1 V c 1 t) r1_0 (ix2 p (0 : Fin 1)) : EReal) = nd (ix1 (row1 t p)) :=
    (congrArg (V c main_v17 : S100000x2.Idx → EReal) (emb1_1a t p)).trans (hnd _)
  have h1b : (View.ld (iblk1 V c 1 t) r1_1 (ix2 p (0 : Fin 1)) : EReal) = ns (ix1 (row1 t p)) :=
    (congrArg (V c main_v17 : S100000x2.Idx → EReal) (emb1_1b t p)).trans (hns _)
  have h2 : ∀ k : Fin 95, (iblk1 V c 2 t (ix2 k q) : EReal) = (V c main_arg4 : S95x128.Idx → EReal) (ix2 k q) :=
    fun k => congrArg (V c main_arg4 : S95x128.Idx → EReal) (emb1_2 t k q)
  have h3 : (iblk1 V c 3 t (ix2 (0 : Fin 1) q) : EReal) = b (ix1 q) :=
    (congrArg (V c main_v31 : S1x128.Idx → EReal) (emb1_3 t q)).trans (hb _)
  rw [emb1_4]
  exact congrArg₂ (· * ·) (congrArg₂ max (congrArg₂ (· + ·)
    (Finset.sum_congr rfl fun k _ => congrArg₂ (· * ·) (congrArg₂ (· * ·) (h0 k) h1a) (h2 k)) h3) rfl) h1b

/-- Membership in point `t`'s output block, coordinate by coordinate. -/
theorem midMem1 (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v32).slice (win1_4.rect t)).set ↔ _
  rw [View.set_slice_whole, Rect.mem_set_unit]
  exact Iff.rfl

/-- Row `r` lies in the block of point `r / 5000`: the blocks cover the array. -/
theorem midCover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  have htv : t.val = (i 0).val / 5000 := rfl
  obtain ⟨-, -, -, -, -, -, -, -, e0, e1⟩ := idx1 t
  refine ⟨t, flush1_4 t, ?_⟩
  rw [midMem1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- THE REGION'S OUTPUT ARRAY. -/
theorem midArr1 (c : Dev nD) (nd ns : Nodes.Idx → EReal) (b : B128.Idx → EReal)
    (hnd : ∀ r : Fin 100000, (V c main_v17 : S100000x2.Idx → EReal) (ix2 r (0 : Fin 2)) = nd (ix1 r))
    (hns : ∀ r : Fin 100000, (V c main_v17 : S100000x2.Idx → EReal) (ix2 r (1 : Fin 2)) = ns (ix1 r))
    (hb : ∀ q : Fin 128, (V c main_v31 : S1x128.Idx → EReal) (ix2 (0 : Fin 1) q) = b (ix1 q)) :
    (dat1 (F := Ideal) V c).arrAt 4 cfg1.N = layerMid95 (V c main_v30) nd ns (V c main_arg4) b :=
  (dat1 (F := Ideal) V c).arrAt_eq_of_cover 4 _ (fun t _ => midFlushed1 V c nd ns b hnd hns hb t) midCover1

end Cert.KernelIdeal.Stage

end
-- ==== Proof.Region2.lean ====
/-
  A middle layer's region. The node array is cut into 20 blocks of 5000 rows; the weight matrix and the bias row are
  whole at every point. At block `t` the body weights row `p` of the aggregate by column 0 of the packed weights,
  multiplies it into the matrix (a sum over the 128 input features), adds the bias, cuts the negative part and weights
  the row by column 1. Row `p` of block `t` is row `5000 t + p` of the array and the blocks cover every row, so the
  output array is `layerMid128` of the aggregate, the two weight columns, the matrix and the bias.
-/
import proofs.«112282_j74019466379909_2_alg».proof.Proof.Gen.KernelIdeal.Frame
import proofs.«112282_j74019466379909_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Stage

open Cert.KernelIdeal Cert.KernelIdeal.Gen Cert.GraphSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

theorem dotL2_0 (i : S5000x128.Idx) (k : dot_S5000x128_S128x128_S5000x128_1_0_0_1_n_n.contr.Idx) : (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dotR2_1 (i : S5000x128.Idx) (k : dot_S5000x128_S128x128_S5000x128_1_0_0_1_n_n.contr.Idx) : (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix unit's product into the zero accumulator, at row `p` and column `q`: the sum over the contracted axis. -/
theorem matmul2_at (L : FVec Ideal S5000x128 .bf16) (Rt : FVec Ideal S128x128 .bf16) (p : Fin 5000) (q : Fin 128) :
    matmul dot_S5000x128_S128x128_S5000x128_1_0_0_1_n_n none L Rt (constant S5000x128 .f32 0x00000000#32) (ix2 p q) = ∑ k : Fin 128, L (ix2 p k) * Rt (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact dotL2_0 _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl _ _).trans hk
    | ⟨1, _⟩ => exact dotR2_1 _ _)
  rw [el, er]

/-- The body's arithmetic at one entry of the block. -/
theorem midPay2_at (v0 v2 : Vec Ideal S5000x1 .f32) (v4 : Vec Ideal S5000x128 .f32) (v9 : Vec Ideal S128x128 .f32) (v12 : Vec Ideal S1x128 .f32)
    (p : Fin 5000) (q : Fin 128) :
    k2_pay1 (F := Ideal) v0 v2 v4 v9 v12 (ix2 p q)
      = max ((∑ k : Fin 128, (v4 (ix2 p k) * v0 (ix2 p (0 : Fin 1))) * v9 (ix2 k q)) + v12 (ix2 (0 : Fin 1) q)) zeroW * v2 (ix2 p (0 : Fin 1)) := by
  unfold k2_pay1
  rw [truncf_apply, mulf_apply, maximumf_apply, addf_apply, broadcast_apply, matmul2_at]
  refine congrArg₂ (· * ·) (congrArg₂ max (congrArg₂ (· + ·) (Finset.sum_congr rfl fun k _ => ?_) ?_) rfl) ?_
  · rw [truncf_apply, truncf_apply, mulf_apply, shapeCast_self, shapeCast_self]
    refine congrArg (fun z => (v4 (ix2 p k) * z) * v9 (ix2 k q)) ?_
    exact broadcastTo_apply v0 broadcasts_S5000x1_S5000x128 (ix2 p k) (ix2 p (0 : Fin 1)) (fun a => by
      match a with
      | ⟨0, _⟩ => rfl
      | ⟨1, _⟩ => rfl)
  · rw [shapeCast_self]
    exact broadcastTo_apply v12 broadcasts_S1x128_S5000x128 (ix2 p q) (ix2 (0 : Fin 1) q) (fun a => by
      match a with
      | ⟨0, _⟩ => rfl
      | ⟨1, _⟩ => rfl)
  · rw [shapeCast_self]
    exact broadcastTo_apply v2 broadcasts_S5000x1_S5000x128 (ix2 p q) (ix2 p (0 : Fin 1)) (fun a => by
      match a with
      | ⟨0, _⟩ => rfl
      | ⟨1, _⟩ => rfl)

/-- There are 20 grid points. -/
theorem lt20_2 : ∀ t : Fin cfg2.N, t.val < 20 := (by decide +kernel : ∀ t : Fin grid2.N, t.val < 20)

/-- The row-blocked windows' block index at point `t` is `(t, 0)`; the matrix's and the bias's is `(0, 0)`. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row `p` of block `t`. -/
def row2 (t : Fin cfg2.N) (p : Fin 5000) : Fin 100000 := ⟨t.val * 5000 + p.val, by have := lt20_2 t; have := p.isLt; omega⟩

theorem emb2_0 (t : Fin cfg2.N) (p : Fin 5000) (k : Fin 128) :
    ((cfg2.win 0).blk t).view.emb (ix2 p k) = ix2 (row2 t p) k := by
  obtain ⟨e0, e1, -⟩ := idx2 t
  funext a; apply Fin.ext
  match a with
  | ⟨0, _⟩ => show win2_0.index t (0 : Fin 2) * 5000 + 1 * p.val = t.val * 5000 + p.val; omega
  | ⟨1, _⟩ => show win2_0.index t (1 : Fin 2) * 128 + 1 * k.val = k.val; omega

/-- Column `j` of the packed weights' block, through the body's one-column load. -/
theorem emb2_1a (t : Fin cfg2.N) (p : Fin 5000) :
    ((cfg2.win 1).blk t).view.emb (r2_0.idx (ix2 p (0 : Fin 1))) = ix2 (row2 t p) (0 : Fin 2) := by
  obtain ⟨-, -, e0, e1, -⟩ := idx2 t
  funext a; apply Fin.ext
  match a with
  | ⟨0, _⟩ => show win2_1.index t (0 : Fin 2) * 5000 + 1 * (0 + 1 * p.val) = t.val * 5000 + p.val; omega
  | ⟨1, _⟩ => show win2_1.index t (1 : Fin 2) * 2 + 1 * (0 + 1 * 0) = 0; omega
theorem emb2_1b (t : Fin cfg2.N) (p : Fin 5000) :
    ((cfg2.win 1).blk t).view.emb (r2_1.idx (ix2 p (0 : Fin 1))) = ix2 (row2 t p) (1 : Fin 2) := by
  obtain ⟨-, -, e0, e1, -⟩ := idx2 t
  funext a; apply Fin.ext
  match a with
  | ⟨0, _⟩ => show win2_1.index t (0 : Fin 2) * 5000 + 1 * (0 + 1 * p.val) = t.val * 5000 + p.val; omega
  | ⟨1, _⟩ => show win2_1.index t (1 : Fin 2) * 2 + 1 * (1 + 1 * 0) = 1; omega

theorem emb2_2 (t : Fin cfg2.N) (k : Fin 128) (q : Fin 128) :
    ((cfg2.win 2).blk t).view.emb (ix2 k q) = ix2 k q := by
  obtain ⟨-, -, -, -, e0, e1, -⟩ := idx2 t
  funext a; apply Fin.ext
  match a with
  | ⟨0, _⟩ => show win2_2.index t (0 : Fin 2) * 128 + 1 * k.val = k.val; omega
  | ⟨1, _⟩ => show win2_2.index t (1 : Fin 2) * 128 + 1 * q.val = q.val; omega

theorem emb2_3 (t : Fin cfg2.N) (q : Fin 128) :
    ((cfg2.win 3).blk t).view.emb (ix2 (0 : Fin 1) q) = ix2 (0 : Fin 1) q := by
  obtain ⟨-, -, -, -, -, -, e0, e1, -⟩ := idx2 t
  funext a; apply Fin.ext
  match a with
  | ⟨0, _⟩ => show win2_3.index t (0 : Fin 2) * 1 + 1 * 0 = 0; omega
  | ⟨1, _⟩ => show win2_3.index t (1 : Fin 2) * 128 + 1 * q.val = q.val; omega

theorem emb2_4 (t : Fin cfg2.N) (p : Fin 5000) (q : Fin 128) :
    ((cfg2.win 4).blk t).view.emb (ix2 p q) = ix2 (row2 t p) q := by
  obtain ⟨-, -, -, -, -, -, -, -, e0, e1⟩ := idx2 t
  funext a; apply Fin.ext
  match a with
  | ⟨0, _⟩ => show win2_4.index t (0 : Fin 2) * 5000 + 1 * p.val = t.val * 5000 + p.val; omega
  | ⟨1, _⟩ => show win2_4.index t (1 : Fin 2) * 128 + 1 * q.val = q.val; omega

/-- What point `t` writes back is block `t` of the layer's array. -/
theorem midFlushed2 (c : Dev nD) (nd ns : Nodes.Idx → EReal) (b : B128.Idx → EReal)
    (hnd : ∀ r : Fin 100000, (V c main_v17 : S100000x2.Idx → EReal) (ix2 r (0 : Fin 2)) = nd (ix1 r))
    (hns : ∀ r : Fin 100000, (V c main_v17 : S100000x2.Idx → EReal) (ix2 r (1 : Fin 2)) = ns (ix1 r))
    (hb : ∀ q : Fin 128, (V c main_v44 : S1x128.Idx → EReal) (ix2 (0 : Fin 1) q) = b (ix1 q)) (t : Fin cfg2.N) :
    (dat2 (F := Ideal) V c).flushed 4 t
      = ((cfg2.win 4).blk t).view.read (Elt Ideal) (layerMid128 (V c main_v43) nd ns (V c main_arg6) b) := by
  show (cfg2.win 4).cut (grid2.coords t) ((dat2 (F := Ideal) V c).after 4 t) = _
  rw [after2_4]
  unfold out2_4
  rw [View.canon_unit_zero hz2]
  simp only [View.ld_unit_zero (S := S5000x128) hz2, View.ld_unit_zero (S := S128x128) hz2, View.ld_unit_zero (S := S1x128) hz2]
  funext j
  obtain ⟨p, q, rfl⟩ : ∃ (p : Fin 5000) (q : Fin 128), j = ix2 p q := ⟨j 0, j 1, eq_ix2 j⟩
  show k2_pay1 (F := Ideal) (View.ld (iblk2 V c 1 t) r2_0) (View.ld (iblk2 V c 1 t) r2_1) (iblk2 V c 0 t) (iblk2 V c 2 t) (iblk2 V c 3 t) (ix2 p q)
      = layerMid128 (V c main_v43) nd ns (V c main_arg6) b (((cfg2.win 4).blk t).view.emb (ix2 p q))
  refine (midPay2_at _ _ _ _ _ p q).trans ?_
  have h0 : ∀ k : Fin 128, (iblk2 V c 0 t (ix2 p k) : EReal) = (V c main_v43 : S100000x128.Idx → EReal) (ix2 (row2 t p) k) :=
    fun k => congrArg (V c main_v43 : S100000x128.Idx → EReal) (emb2_0 t p k)
  have h1a : (View.ld (iblk2 V c 1 t) r2_0 (ix2 p (0 : Fin 1)) : EReal) = nd (ix1 (row2 t p)) :=
    (congrArg (V c main_v17 : S100000x2.Idx → EReal) (emb2_1a t p)).trans (hnd _)
  have h1b : (View.ld (iblk2 V c 1 t) r2_1 (ix2 p (0 : Fin 1)) : EReal) = ns (ix1 (row2 t p)) :=
    (congrArg (V c main_v17 : S100000x2.Idx → EReal) (emb2_1b t p)).trans (hns _)
  have h2 : ∀ k : Fin 128, (iblk2 V c 2 t (ix2 k q) : EReal) = (V c main_arg6 : S128x128.Idx → EReal) (ix2 k q) :=
    fun k => congrArg (V c main_arg6 : S128x128.Idx → EReal) (emb2_2 t k q)
  have h3 : (iblk2 V c 3 t (ix2 (0 : Fin 1) q) : EReal) = b (ix1 q) :=
    (congrArg (V c main_v44 : S1x128.Idx → EReal) (emb2_3 t q)).trans (hb _)
  rw [emb2_4]
  exact congrArg₂ (· * ·) (congrArg₂ max (congrArg₂ (· + ·)
    (Finset.sum_congr rfl fun k _ => congrArg₂ (· * ·) (congrArg₂ (· * ·) (h0 k) h1a) (h2 k)) h3) rfl) h1b

/-- Membership in point `t`'s output block, coordinate by coordinate. -/
theorem midMem2 (t : Fin cfg2.N) (i : S100000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v45).slice (win2_4.rect t)).set ↔ _
  rw [View.set_slice_whole, Rect.mem_set_unit]
  exact Iff.rfl

/-- Row `r` lies in the block of point `r / 5000`: the blocks cover the array. -/
theorem midCover2 (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  have htv : t.val = (i 0).val / 5000 := rfl
  obtain ⟨-, -, -, -, -, -, -, -, e0, e1⟩ := idx2 t
  refine ⟨t, flush2_4 t, ?_⟩
  rw [midMem2]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- THE REGION'S OUTPUT ARRAY. -/
theorem midArr2 (c : Dev nD) (nd ns : Nodes.Idx → EReal) (b : B128.Idx → EReal)
    (hnd : ∀ r : Fin 100000, (V c main_v17 : S100000x2.Idx → EReal) (ix2 r (0 : Fin 2)) = nd (ix1 r))
    (hns : ∀ r : Fin 100000, (V c main_v17 : S100000x2.Idx → EReal) (ix2 r (1 : Fin 2)) = ns (ix1 r))
    (hb : ∀ q : Fin 128, (V c main_v44 : S1x128.Idx → EReal) (ix2 (0 : Fin 1) q) = b (ix1 q)) :
    (dat2 (F := Ideal) V c).arrAt 4 cfg2.N = layerMid128 (V c main_v43) nd ns (V c main_arg6) b :=
  (dat2 (F := Ideal) V c).arrAt_eq_of_cover 4 _ (fun t _ => midFlushed2 V c nd ns b hnd hns hb t) midCover2

end Cert.KernelIdeal.Stage

end
-- ==== Proof.Region3.lean ====
/-
  The last layer's region. The node array is cut into 20 blocks of 5000 rows; the weight matrix and the bias row are whole
  at every point. At block `t` the body weights row `p` of the aggregate by the one entry of row `p` of the weight
  column's block, multiplies it into the matrix (a sum over the 128 input features), adds the bias and cuts the negative
  part. Row `p` of block `t` is row `5000 t + p` of the array and the blocks cover every row, so the output array is
  `layerLast` of the aggregate, the weight column, the matrix and the bias.
-/
import proofs.«112282_j74019466379909_2_alg».proof.Proof.Gen.KernelIdeal.Frame
import proofs.«112282_j74019466379909_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Stage

open Cert.KernelIdeal Cert.KernelIdeal.Gen Cert.GraphSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz3 : (![0, 0] : Fin 2 → Nat) = fun _ => 0 := funext fun a => by fin_cases a <;> rfl

theorem dotL3_0 (i : S5000x128.Idx) (k : dot_S5000x128_S128x128_S5000x128_1_0_0_1_n_n.contr.Idx) : (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dotR3_1 (i : S5000x128.Idx) (k : dot_S5000x128_S128x128_S5000x128_1_0_0_1_n_n.contr.Idx) : (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix unit's product into the zero accumulator, at row `p` and column `q`: the sum over the contracted axis. -/
theorem matmul3_at (L : FVec Ideal S5000x128 .bf16) (Rt : FVec Ideal S128x128 .bf16) (p : Fin 5000) (q : Fin 128) :
    matmul dot_S5000x128_S128x128_S5000x128_1_0_0_1_n_n none L Rt (constant S5000x128 .f32 0x00000000#32) (ix2 p q) = ∑ k : Fin 128, L (ix2 p k) * Rt (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact dotL3_0 _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl _ _).trans hk
    | ⟨1, _⟩ => exact dotR3_1 _ _)
  rw [el, er]

/-- The body's arithmetic at one entry of the block. -/
theorem lastPay_at (v0 : Vec Ideal S5000x128 .f32) (v2 : Vec Ideal S5000x1 .f32) (v7 : Vec Ideal S128x128 .f32) (v10 : Vec Ideal S1x128 .f32)
    (p : Fin 5000) (q : Fin 128) :
    k3_pay1 (F := Ideal) v0 v2 v7 v10 (ix2 p q)
      = max ((∑ k : Fin 128, (v0 (ix2 p k) * v2 (ix2 p (0 : Fin 1))) * v7 (ix2 k q)) + v10 (ix2 (0 : Fin 1) q)) zeroW := by
  unfold k3_pay1
  rw [maximumf_apply, addf_apply, broadcast_apply, matmul3_at]
  refine congrArg₂ max (congrArg₂ (· + ·) (Finset.sum_congr rfl fun k _ => ?_) ?_) rfl
  · rw [truncf_apply, truncf_apply, mulf_apply, shapeCast_self, shapeCast_self]
    refine congrArg (fun z => (v0 (ix2 p k) * z) * v7 (ix2 k q)) ?_
    exact broadcastTo_apply v2 broadcasts_S5000x1_S5000x128 (ix2 p k) (ix2 p (0 : Fin 1)) (fun a => by
      match a with
      | ⟨0, _⟩ => rfl
      | ⟨1, _⟩ => rfl)
  · rw [shapeCast_self]
    exact broadcastTo_apply v10 broadcasts_S1x128_S5000x128 (ix2 p q) (ix2 (0 : Fin 1) q) (fun a => by
      match a with
      | ⟨0, _⟩ => rfl
      | ⟨1, _⟩ => rfl)

/-- There are 20 grid points. -/
theorem lt20_3 : ∀ t : Fin cfg3.N, t.val < 20 := (by decide +kernel : ∀ t : Fin grid3.N, t.val < 20)

/-- The row-blocked windows' block index at point `t` is `(t, 0)`; the matrix's and the bias's is `(0, 0)`. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row `p` of block `t`. -/
def row3 (t : Fin cfg3.N) (p : Fin 5000) : Fin 100000 := ⟨t.val * 5000 + p.val, by have := lt20_3 t; have := p.isLt; omega⟩

theorem emb3_0 (t : Fin cfg3.N) (p : Fin 5000) (k : Fin 128) :
    ((cfg3.win 0).blk t).view.emb (ix2 p k) = ix2 (row3 t p) k := by
  obtain ⟨e0, e1, -⟩ := idx3 t
  funext a; apply Fin.ext
  match a with
  | ⟨0, _⟩ => show win3_0.index t (0 : Fin 2) * 5000 + 1 * p.val = t.val * 5000 + p.val; omega
  | ⟨1, _⟩ => show win3_0.index t (1 : Fin 2) * 128 + 1 * k.val = k.val; omega

theorem emb3_1 (t : Fin cfg3.N) (p : Fin 5000) :
    ((cfg3.win 1).blk t).view.emb (ix2 p (0 : Fin 1)) = ix2 (row3 t p) (0 : Fin 1) := by
  obtain ⟨-, -, e0, e1, -⟩ := idx3 t
  funext a; apply Fin.ext
  match a with
  | ⟨0, _⟩ => show win3_1.index t (0 : Fin 2) * 5000 + 1 * p.val = t.val * 5000 + p.val; omega
  | ⟨1, _⟩ => show win3_1.index t (1 : Fin 2) * 1 + 1 * 0 = 0; omega

theorem emb3_2 (t : Fin cfg3.N) (k : Fin 128) (q : Fin 128) :
    ((cfg3.win 2).blk t).view.emb (ix2 k q) = ix2 k q := by
  obtain ⟨-, -, -, -, e0, e1, -⟩ := idx3 t
  funext a; apply Fin.ext
  match a with
  | ⟨0, _⟩ => show win3_2.index t (0 : Fin 2) * 128 + 1 * k.val = k.val; omega
  | ⟨1, _⟩ => show win3_2.index t (1 : Fin 2) * 128 + 1 * q.val = q.val; omega

theorem emb3_3 (t : Fin cfg3.N) (q : Fin 128) :
    ((cfg3.win 3).blk t).view.emb (ix2 (0 : Fin 1) q) = ix2 (0 : Fin 1) q := by
  obtain ⟨-, -, -, -, -, -, e0, e1, -⟩ := idx3 t
  funext a; apply Fin.ext
  match a with
  | ⟨0, _⟩ => show win3_3.index t (0 : Fin 2) * 1 + 1 * 0 = 0; omega
  | ⟨1, _⟩ => show win3_3.index t (1 : Fin 2) * 128 + 1 * q.val = q.val; omega

theorem emb3_4 (t : Fin cfg3.N) (p : Fin 5000) (q : Fin 128) :
    ((cfg3.win 4).blk t).view.emb (ix2 p q) = ix2 (row3 t p) q := by
  obtain ⟨-, -, -, -, -, -, -, -, e0, e1⟩ := idx3 t
  funext a; apply Fin.ext
  match a with
  | ⟨0, _⟩ => show win3_4.index t (0 : Fin 2) * 5000 + 1 * p.val = t.val * 5000 + p.val; omega
  | ⟨1, _⟩ => show win3_4.index t (1 : Fin 2) * 128 + 1 * q.val = q.val; omega

/-- What point `t` writes back is block `t` of the layer's array. -/
theorem lastFlushed (c : Dev nD) (nd : Nodes.Idx → EReal) (b : B128.Idx → EReal)
    (hnd : ∀ r : Fin 100000, (V c main_v57 : S100000x1.Idx → EReal) (ix2 r (0 : Fin 1)) = nd (ix1 r))
    (hb : ∀ q : Fin 128, (V c main_v58 : S1x128.Idx → EReal) (ix2 (0 : Fin 1) q) = b (ix1 q)) (t : Fin cfg3.N) :
    (dat3 (F := Ideal) V c).flushed 4 t
      = ((cfg3.win 4).blk t).view.read (Elt Ideal) (layerLast (V c main_v56) nd (V c main_arg8) b) := by
  show (cfg3.win 4).cut (grid3.coords t) ((dat3 (F := Ideal) V c).after 4 t) = _
  rw [after3_4]
  unfold out3_4
  rw [View.canon_unit_zero hz3]
  simp only [View.ld_unit_zero (S := S5000x128) hz3, View.ld_unit_zero (S := S5000x1) hz3, View.ld_unit_zero (S := S128x128) hz3, View.ld_unit_zero (S := S1x128) hz3]
  funext j
  obtain ⟨p, q, rfl⟩ : ∃ (p : Fin 5000) (q : Fin 128), j = ix2 p q := ⟨j 0, j 1, eq_ix2 j⟩
  show k3_pay1 (F := Ideal) (iblk3 V c 0 t) (iblk3 V c 1 t) (iblk3 V c 2 t) (iblk3 V c 3 t) (ix2 p q)
      = layerLast (V c main_v56) nd (V c main_arg8) b (((cfg3.win 4).blk t).view.emb (ix2 p q))
  refine (lastPay_at _ _ _ _ p q).trans ?_
  have h0 : ∀ k : Fin 128, (iblk3 V c 0 t (ix2 p k) : EReal) = (V c main_v56 : S100000x128.Idx → EReal) (ix2 (row3 t p) k) :=
    fun k => congrArg (V c main_v56 : S100000x128.Idx → EReal) (emb3_0 t p k)
  have h1 : (iblk3 V c 1 t (ix2 p (0 : Fin 1)) : EReal) = nd (ix1 (row3 t p)) :=
    (congrArg (V c main_v57 : S100000x1.Idx → EReal) (emb3_1 t p)).trans (hnd _)
  have h2 : ∀ k : Fin 128, (iblk3 V c 2 t (ix2 k q) : EReal) = (V c main_arg8 : S128x128.Idx → EReal) (ix2 k q) :=
    fun k => congrArg (V c main_arg8 : S128x128.Idx → EReal) (emb3_2 t k q)
  have h3 : (iblk3 V c 3 t (ix2 (0 : Fin 1) q) : EReal) = b (ix1 q) :=
    (congrArg (V c main_v58 : S1x128.Idx → EReal) (emb3_3 t q)).trans (hb _)
  rw [emb3_4]
  exact congrArg₂ max (congrArg₂ (· + ·)
    (Finset.sum_congr rfl fun k _ => congrArg₂ (· * ·) (congrArg₂ (· * ·) (h0 k) h1) (h2 k)) h3) rfl

/-- Membership in point `t`'s output block, coordinate by coordinate. -/
theorem lastMem (t : Fin cfg3.N) (i : S100000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v59).slice (win3_4.rect t)).set ↔ _
  rw [View.set_slice_whole, Rect.mem_set_unit]
  exact Iff.rfl

/-- Row `r` lies in the block of point `r / 5000`: the blocks cover the array. -/
theorem lastCover (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have hN : cfg3.N = 20 := N_3
  let t : Fin cfg3.N := ⟨(i 0).val / 5000, by rw [hN]; omega⟩
  have htv : t.val = (i 0).val / 5000 := rfl
  obtain ⟨-, -, -, -, -, -, -, -, e0, e1⟩ := idx3 t
  refine ⟨t, flush3_4 t, ?_⟩
  rw [lastMem]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- THE REGION'S OUTPUT ARRAY. -/
theorem lastArr (c : Dev nD) (nd : Nodes.Idx → EReal) (b : B128.Idx → EReal)
    (hnd : ∀ r : Fin 100000, (V c main_v57 : S100000x1.Idx → EReal) (ix2 r (0 : Fin 1)) = nd (ix1 r))
    (hb : ∀ q : Fin 128, (V c main_v58 : S1x128.Idx → EReal) (ix2 (0 : Fin 1) q) = b (ix1 q)) :
    (dat3 (F := Ideal) V c).arrAt 4 cfg3.N = layerLast (V c main_v56) nd (V c main_arg8) b :=
  (dat3 (F := Ideal) V c).arrAt_eq_of_cover 4 _ (fun t _ => lastFlushed V c nd b hnd hb t) lastCover

end Cert.KernelIdeal.Stage

end
-- ==== Proof.Region4.lean ====
/-
  The classifier's region: one grid point, every window whole. The body bounds each graph's node count below by one,
  divides the graph's 128 feature sums by it, multiplies the quotients into the classifier matrix (a sum over the 128
  features) and adds the bias. The one block is the whole array, so the output array is `poolClassify` of the sums, the
  counts, the matrix and the bias.
-/
import proofs.«112282_j74019466379909_2_alg».proof.Proof.Gen.KernelIdeal.Frame
import proofs.«112282_j74019466379909_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Stage

open Cert.KernelIdeal Cert.KernelIdeal.Gen Cert.GraphSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz4 : (![0, 0] : Fin 2 → Nat) = fun _ => 0 := funext fun a => by fin_cases a <;> rfl

theorem dotL4_0 (i : S1000x16.Idx) (k : dot_S1000x128_S128x16_S1000x16_1_0_0_1_n_n.contr.Idx) : (dot_S1000x128_S128x16_S1000x16_1_0_0_1_n_n.lhsIdx i k 0).val = (i 0).val := by
  unfold DotDims.lhsIdx
  rw [dif_neg (show ¬(0 : Fin S1000x128.rank) ∈ dot_S1000x128_S128x16_S1000x16_1_0_0_1_n_n.lhsBatch by decide), dif_pos (show (0 : Fin S1000x128.rank) ∈ dot_S1000x128_S128x16_S1000x16_1_0_0_1_n_n.lhsNonContracting by decide)]
  rfl
theorem dotR4_1 (i : S1000x16.Idx) (k : dot_S1000x128_S128x16_S1000x16_1_0_0_1_n_n.contr.Idx) : (dot_S1000x128_S128x16_S1000x16_1_0_0_1_n_n.rhsIdx i k 1).val = (i 1).val := by
  unfold DotDims.rhsIdx
  rw [dif_neg (show ¬(1 : Fin S128x16.rank) ∈ dot_S1000x128_S128x16_S1000x16_1_0_0_1_n_n.rhsBatch by decide), dif_pos (show (1 : Fin S128x16.rank) ∈ dot_S1000x128_S128x16_S1000x16_1_0_0_1_n_n.rhsNonContracting by decide)]
  rfl

/-- The matrix unit's product into the zero accumulator, at graph `g` and class `q`: the sum over the contracted axis. -/
theorem matmul4_at (L : FVec Ideal S1000x128 .bf16) (Rt : FVec Ideal S128x16 .bf16) (g : Fin 1000) (q : Fin 16) :
    matmul dot_S1000x128_S128x16_S1000x16_1_0_0_1_n_n none L Rt (constant S1000x16 .f32 0x00000000#32) (ix2 g q) = ∑ k : Fin 128, L (ix2 g k) * Rt (ix2 k q) := by
  simp only [matmul]
  rw [Ideal.matmul_constant_zero_apply, ← Equiv.sum_comp (contrEquiv1 dot_S1000x128_S128x16_S1000x16_1_0_0_1_n_n 128 rfl rfl).symm]
  refine Finset.sum_congr rfl fun k _ => ?_
  have hk := contrEquiv1_symm_val dot_S1000x128_S128x16_S1000x16_1_0_0_1_n_n 128 rfl rfl k
  have el : dot_S1000x128_S128x16_S1000x16_1_0_0_1_n_n.lhsIdx (ix2 g q) ((contrEquiv1 dot_S1000x128_S128x16_S1000x16_1_0_0_1_n_n 128 rfl rfl).symm k) = ix2 g k := funext fun a => Fin.ext (by
    match a with
    | ⟨0, _⟩ => exact dotL4_0 _ _
    | ⟨1, _⟩ => exact (dot_S1000x128_S128x16_S1000x16_1_0_0_1_n_n.lhsIdx_val_of_single rfl _ _).trans hk)
  have er : dot_S1000x128_S128x16_S1000x16_1_0_0_1_n_n.rhsIdx (ix2 g q) ((contrEquiv1 dot_S1000x128_S128x16_S1000x16_1_0_0_1_n_n 128 rfl rfl).symm k) = ix2 k q := funext fun a => Fin.ext (by
    match a with
    | ⟨0, _⟩ => exact (dot_S1000x128_S128x16_S1000x16_1_0_0_1_n_n.rhsIdx_val_of_single rfl _ _).trans hk
    | ⟨1, _⟩ => exact dotR4_1 _ _)
  rw [el, er]

/-- The body's arithmetic at one entry of the block. -/
theorem classPay_at (v0 : Vec Ideal S1000x1 .f32) (v4 : Vec Ideal S1000x128 .f32) (v9 : Vec Ideal S128x16 .f32) (v12 : Vec Ideal S1x16 .f32)
    (g : Fin 1000) (q : Fin 16) :
    k4_pay1 (F := Ideal) v0 v4 v9 v12 (ix2 g q)
      = (∑ k : Fin 128, Ideal.div (v4 (ix2 g k)) (max (v0 (ix2 g (0 : Fin 1))) oneW) * v9 (ix2 k q)) + v12 (ix2 (0 : Fin 1) q) := by
  unfold k4_pay1
  rw [addf_apply, matmul4_at]
  refine congrArg₂ (· + ·) (Finset.sum_congr rfl fun k _ => ?_) ?_
  · rw [truncf_apply, truncf_apply, divf_apply, shapeCast_self, shapeCast_self]
    refine congrArg (fun z => Ideal.div (v4 (ix2 g k)) z * v9 (ix2 k q)) ?_
    exact broadcastTo_apply _ broadcasts_S1000x1_S1000x128 (ix2 g k) (ix2 g (0 : Fin 1)) (fun a => by
      match a with
      | ⟨0, _⟩ => rfl
      | ⟨1, _⟩ => rfl)
  · rw [shapeCast_self]
    exact broadcastTo_apply v12 broadcasts_S1x16_S1000x16 (ix2 g q) (ix2 (0 : Fin 1) q) (fun a => by
      match a with
      | ⟨0, _⟩ => rfl
      | ⟨1, _⟩ => rfl)

/-- Every window's block index at the one point is `(0, 0)`. -/
theorem idx4 : ∀ t : Fin cfg4.N, t.val = 0 ∧ win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

theorem emb4_0 (t : Fin cfg4.N) (g : Fin 1000) (k : Fin 128) :
    ((cfg4.win 0).blk t).view.emb (ix2 g k) = ix2 g k := by
  obtain ⟨-, e0, e1, -⟩ := idx4 t
  funext a; apply Fin.ext
  match a with
  | ⟨0, _⟩ => show win4_0.index t (0 : Fin 2) * 1000 + 1 * g.val = g.val; omega
  | ⟨1, _⟩ => show win4_0.index t (1 : Fin 2) * 128 + 1 * k.val = k.val; omega

theorem emb4_1 (t : Fin cfg4.N) (g : Fin 1000) :
    ((cfg4.win 1).blk t).view.emb (ix2 g (0 : Fin 1)) = ix2 g (0 : Fin 1) := by
  obtain ⟨-, -, -, e0, e1, -⟩ := idx4 t
  funext a; apply Fin.ext
  match a with
  | ⟨0, _⟩ => show win4_1.index t (0 : Fin 2) * 1000 + 1 * g.val = g.val; omega
  | ⟨1, _⟩ => show win4_1.index t (1 : Fin 2) * 1 + 1 * 0 = 0; omega

theorem emb4_2 (t : Fin cfg4.N) (k : Fin 128) (q : Fin 16) :
    ((cfg4.win 2).blk t).view.emb (ix2 k q) = ix2 k q := by
  obtain ⟨-, -, -, -, -, e0, e1, -⟩ := idx4 t
  funext a; apply Fin.ext
  match a with
  | ⟨0, _⟩ => show win4_2.index t (0 : Fin 2) * 128 + 1 * k.val = k.val; omega
  | ⟨1, _⟩ => show win4_2.index t (1 : Fin 2) * 16 + 1 * q.val = q.val; omega

theorem emb4_3 (t : Fin cfg4.N) (q : Fin 16) :
    ((cfg4.win 3).blk t).view.emb (ix2 (0 : Fin 1) q) = ix2 (0 : Fin 1) q := by
  obtain ⟨-, -, -, -, -, -, -, e0, e1, -⟩ := idx4 t
  funext a; apply Fin.ext
  match a with
  | ⟨0, _⟩ => show win4_3.index t (0 : Fin 2) * 1 + 1 * 0 = 0; omega
  | ⟨1, _⟩ => show win4_3.index t (1 : Fin 2) * 16 + 1 * q.val = q.val; omega

theorem emb4_4 (t : Fin cfg4.N) (g : Fin 1000) (q : Fin 16) :
    ((cfg4.win 4).blk t).view.emb (ix2 g q) = ix2 g q := by
  obtain ⟨-, -, -, -, -, -, -, -, -, e0, e1⟩ := idx4 t
  funext a; apply Fin.ext
  match a with
  | ⟨0, _⟩ => show win4_4.index t (0 : Fin 2) * 1000 + 1 * g.val = g.val; omega
  | ⟨1, _⟩ => show win4_4.index t (1 : Fin 2) * 16 + 1 * q.val = q.val; omega

/-- What the one point writes back is the whole classifier array. -/
theorem classFlushed (c : Dev nD) (cnts : Graphs.Idx → EReal) (bc : B16.Idx → EReal)
    (hc : ∀ g : Fin 1000, (V c main_v67 : S1000x1.Idx → EReal) (ix2 g (0 : Fin 1)) = cnts (ix1 g))
    (hb : ∀ q : Fin 16, (V c main_v68 : S1x16.Idx → EReal) (ix2 (0 : Fin 1) q) = bc (ix1 q)) (t : Fin cfg4.N) :
    (dat4 (F := Ideal) V c).flushed 4 t
      = ((cfg4.win 4).blk t).view.read (Elt Ideal) (poolClassify (V c main_v62) cnts (V c main_arg10) bc) := by
  show (cfg4.win 4).cut (grid4.coords t) ((dat4 (F := Ideal) V c).after 4 t) = _
  rw [after4_4]
  unfold out4_4
  rw [View.canon_unit_zero hz4]
  simp only [View.ld_unit_zero (S := S1000x128) hz4, View.ld_unit_zero (S := S1000x1) hz4, View.ld_unit_zero (S := S128x16) hz4, View.ld_unit_zero (S := S1x16) hz4]
  funext j
  obtain ⟨g, q, rfl⟩ : ∃ (g : Fin 1000) (q : Fin 16), j = ix2 g q := ⟨j 0, j 1, eq_ix2 j⟩
  show k4_pay1 (F := Ideal) (iblk4 V c 1 t) (iblk4 V c 0 t) (iblk4 V c 2 t) (iblk4 V c 3 t) (ix2 g q)
      = poolClassify (V c main_v62) cnts (V c main_arg10) bc (((cfg4.win 4).blk t).view.emb (ix2 g q))
  refine (classPay_at _ _ _ _ g q).trans ?_
  have h0 : ∀ k : Fin 128, (iblk4 V c 0 t (ix2 g k) : EReal) = (V c main_v62 : S1000x128.Idx → EReal) (ix2 g k) :=
    fun k => congrArg (V c main_v62 : S1000x128.Idx → EReal) (emb4_0 t g k)
  have h1 : (iblk4 V c 1 t (ix2 g (0 : Fin 1)) : EReal) = cnts (ix1 g) :=
    (congrArg (V c main_v67 : S1000x1.Idx → EReal) (emb4_1 t g)).trans (hc _)
  have h2 : ∀ k : Fin 128, (iblk4 V c 2 t (ix2 k q) : EReal) = (V c main_arg10 : S128x16.Idx → EReal) (ix2 k q) :=
    fun k => congrArg (V c main_arg10 : S128x16.Idx → EReal) (emb4_2 t k q)
  have h3 : (iblk4 V c 3 t (ix2 (0 : Fin 1) q) : EReal) = bc (ix1 q) :=
    (congrArg (V c main_v68 : S1x16.Idx → EReal) (emb4_3 t q)).trans (hb _)
  rw [emb4_4]
  exact congrArg₂ (· + ·)
    (Finset.sum_congr rfl fun k _ => congrArg₂ (· * ·) (congrArg₂ Ideal.div (h0 k) (congrArg (max · oneW) h1)) (h2 k)) h3

/-- Membership in the one output block, coordinate by coordinate. -/
theorem classMem (t : Fin cfg4.N) (i : S1000x16.Idx) :
    i ∈ ((cfg4.win 4).blk t).view.set ↔ ∀ a : Fin 2, win4_4.index t a * S1000x16.size a ≤ (i a).val
      ∧ (i a).val < win4_4.index t a * S1000x16.size a + S1000x16.size a := by
  show i ∈ ((View.whole main_v69).slice (win4_4.rect t)).set ↔ _
  rw [View.set_slice_whole, Rect.mem_set_unit]
  exact Iff.rfl

/-- The one block covers the array. -/
theorem classCover (i : S1000x16.Idx) :
    ∃ t : Fin cfg4.N, (cfg4.win 4).flush t = true ∧ i ∈ ((cfg4.win 4).blk t).view.set := by
  have hi0 : (i 0).val < 1000 := (i 0).isLt
  have hi1 : (i 1).val < 16 := (i 1).isLt
  have hN : cfg4.N = 1 := N_4
  let t : Fin cfg4.N := ⟨0, by rw [hN]; omega⟩
  obtain ⟨-, -, -, -, -, -, -, -, -, e0, e1⟩ := idx4 t
  refine ⟨t, flush4_4 t, ?_⟩
  rw [classMem]
  intro a
  match a with
  | ⟨0, _⟩ => show win4_4.index t (0 : Fin 2) * 1000 ≤ (i 0).val ∧ (i 0).val < win4_4.index t (0 : Fin 2) * 1000 + 1000; omega
  | ⟨1, _⟩ => show win4_4.index t (1 : Fin 2) * 16 ≤ (i 1).val ∧ (i 1).val < win4_4.index t (1 : Fin 2) * 16 + 16; omega

/-- THE REGION'S OUTPUT ARRAY. -/
theorem classArr (c : Dev nD) (cnts : Graphs.Idx → EReal) (bc : B16.Idx → EReal)
    (hc : ∀ g : Fin 1000, (V c main_v67 : S1000x1.Idx → EReal) (ix2 g (0 : Fin 1)) = cnts (ix1 g))
    (hb : ∀ q : Fin 16, (V c main_v68 : S1x16.Idx → EReal) (ix2 (0 : Fin 1) q) = bc (ix1 q)) :
    (dat4 (F := Ideal) V c).arrAt 4 cfg4.N = poolClassify (V c main_v62) cnts (V c main_arg10) bc :=
  (dat4 (F := Ideal) V c).arrAt_eq_of_cover 4 _ (fun t _ => classFlushed V c cnts bc hc hb t) classCover

end Cert.KernelIdeal.Stage

end
-- ==== Proof.KernelHost.lean ====
/-
  The host operations around the regions, read at the buffers the regions take, from ANY contents `W` of the TensorCore's
  buffers at the stretch's start. The degree weight of a node is (the number of edges at it, at least one) to the power
  -1/2; an edge aggregate gathers each edge's source row and adds it into the edge's destination row; the pool adds each
  node's row into its graph's row, and the count adds one per node. The packed weights are the two weight columns side by
  side; a column, a bias row and the count column are reshapes of vectors. A buffer no operation of a stretch writes
  keeps its contents.
-/
import proofs.«112282_j74019466379909_2_alg».proof.Proof.Gen.KernelIdeal.Frame
import proofs.«112282_j74019466379909_2_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Stage

open Cert.KernelIdeal Cert.KernelIdeal.Gen Cert.GraphSpec
open Idealize.ShloMosaic Idealize.ShloMosaic.TcCoe Idealize.ShloMosaic.ValueIdx Idealize.SL.Sem Idealize.ShloMosaic.StableHlo

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A vector laid as a column reads, at `(i, u)`, the vector at `i`. -/
theorem column_apply {α : Type} (x : S100000.Idx → α) (r : Fin 100000) (u : Fin 1) :
    broadcastInDim S100000x1 ![0] bcast_S100000_S100000x1_0 x (ix2 r u) = x (ix1 r) :=
  broadcastInDim_apply _ bcast_S100000_S100000x1_0 x (ix2 r u) (ix1 r) (fun a => match a with
    | ⟨0, _⟩ => by show r.val = if (100000 : Nat) = 1 then 0 else r.val; rw [if_neg (by decide)])

/-- Two columns side by side read, in column 0, the first. -/
theorem pack_left {α : Type} (A B : S100000x1.Idx → α) (r : Fin 100000) :
    concatenate S100000x2 (1 : Fin S100000x2.rank) [⟨S100000x1, A⟩, ⟨S100000x1, B⟩] concatenates_S100000x1_S100000x1_S100000x2_d1 (ix2 r (0 : Fin 2))
      = A (ix2 r (0 : Fin 1)) :=
  concatenate_pair_apply_left (1 : Fin S100000x2.rank) A B concatenates_S100000x1_S100000x1_S100000x2_d1 (ix2 r (0 : Fin 2)) rfl
    (ix2 r (0 : Fin 1)) (fun b => by
      match b with
      | ⟨0, _⟩ => rfl
      | ⟨1, _⟩ => rfl)

/-- Two columns side by side read, in column 1, the second. -/
theorem pack_right {α : Type} (A B : S100000x1.Idx → α) (r : Fin 100000) :
    concatenate S100000x2 (1 : Fin S100000x2.rank) [⟨S100000x1, A⟩, ⟨S100000x1, B⟩] concatenates_S100000x1_S100000x1_S100000x2_d1 (ix2 r (1 : Fin 2))
      = B (ix2 r (0 : Fin 1)) :=
  concatenate_pair_apply_right (1 : Fin S100000x2.rank) A B concatenates_S100000x1_S100000x1_S100000x2_d1 (ix2 r (1 : Fin 2)) rfl rfl
    (ix2 r (0 : Fin 1)) (fun b hb => by
      match b with
      | ⟨0, _⟩ => rfl
      | ⟨1, _⟩ => exact absurd rfl hb) rfl

/-! ## The host functions, in the kernel program's spelling -/

/-- A node's degree weight from the edge endpoints `idx`. -/
def kNorm (idx : IVec S1600000 32) : FVec Ideal S100000 .f32 :=
  Host.powf (F := Ideal)
    (maximumf
      (Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 idx)
        (broadcastInDim S1600000 ![] bcast_S_S1600000 (constant (F := Ideal) S_ .f32 0x3F800000#32)))
      (broadcastInDim S100000 ![] bcast_S_S100000 (constant (F := Ideal) S_ .f32 0x3F800000#32)))
    (broadcastInDim S100000 ![] bcast_S_S100000 (constant (F := Ideal) S_ .f32 0xBF000000#32))

/-- The row each edge gathers: the source, wrapped once if negative. -/
def kWrap (src : IVec S1600000 32) : IVec S1600000x1 32 :=
  broadcastInDim S1600000x1 ![0] bcast_S1600000_S1600000x1_0
    (select (cmpi CmpIPredicate.slt src (broadcastInDim S1600000 ![] bcast_S_S1600000 (constantI S_ 32 0#32)))
      (addi src (broadcastInDim S1600000 ![] bcast_S_S1600000 (constantI S_ 32 100000#32))) src)

/-- The edge aggregate of a 95-feature node array. -/
def kEdge95 (h : FVec Ideal S100000x95 .bf16) (src dst : IVec S1600000 32) : FVec Ideal S100000x95 .f32 :=
  Host.scatterAdd (F := Ideal) scatter_S100000x95_S1600000x1_S1600000x95_1_0_0_1
    (broadcastInDim S100000x95 ![] bcast_S_S100000x95 (constant (F := Ideal) S_ .f32 0x00000000#32))
    (broadcastInDim S1600000x1 ![0] bcast_S1600000_S1600000x1_0 dst)
    (extf .f32 (Host.gather gather_S100000x95_S1600000x1_S1600000x95_1_0_n_n_0_1_195 h (kWrap src)) bitsLt_bf16_f32)

/-- The edge aggregate of a 128-feature node array. -/
def kEdge128 (h : FVec Ideal S100000x128 .bf16) (src dst : IVec S1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (extf .f32 (Host.gather gather_S100000x128_S1600000x1_S1600000x128_1_0_n_n_0_1_1128 h (kWrap src)) bitsLt_bf16_f32)

/-- Each graph's sum of its nodes' rows. -/
def kPool (h : FVec Ideal S100000x128 .f32) (gid : IVec S100000 32) : FVec Ideal S1000x128 .f32 :=
  Host.scatterAdd (F := Ideal) scatter_S1000x128_S100000x1_S100000x128_1_0_0_1
    (broadcastInDim S1000x128 ![] bcast_S_S1000x128 (constant (F := Ideal) S_ .f32 0x00000000#32))
    (broadcastInDim S100000x1 ![0] bcast_S100000_S100000x1_0 gid) h

/-- Each graph's number of nodes. -/
def kCount (gid : IVec S100000 32) : FVec Ideal S1000 .f32 :=
  Host.scatterAdd (F := Ideal) scatter_S1000_S100000x1_S100000_n_0_0_1
    (broadcastInDim S1000 ![] bcast_S_S1000 (constant (F := Ideal) S_ .f32 0x00000000#32))
    (broadcastInDim S100000x1 ![0] bcast_S100000_S100000x1_0 gid)
    (broadcastInDim S100000 ![] bcast_S_S100000 (constant (F := Ideal) S_ .f32 0x3F800000#32))

variable (W : Valuation τ sig (Elt Ideal))

/-! ## The stretch before the row-scaling region -/

theorem host0_v18 (r : Fin 100000) :
    (StableHlo.after (hostOps0 (F := Ideal)) W (Proc.devRef .tc main_v18) : S100000x1.Idx → EReal) (ix2 r (0 : Fin 1))
      = kNorm (W (Proc.devRef .tc main_arg1)) (ix1 r) := by
  simp only [hostOps0]
  after_results
  exact shapeCast_a_a1_apply _ shapeCasts_S100000_S100000x1 r 0

theorem host0_v14 :
    StableHlo.after (hostOps0 (F := Ideal)) W (Proc.devRef .tc main_v14) = kNorm (W (Proc.devRef .tc main_arg2)) := by
  simp only [hostOps0]
  after_results
  rfl

theorem host0_v17_0 (r : Fin 100000) :
    (StableHlo.after (hostOps0 (F := Ideal)) W (Proc.devRef .tc main_v17) : S100000x2.Idx → EReal) (ix2 r (0 : Fin 2))
      = kNorm (W (Proc.devRef .tc main_arg2)) (ix1 r) := by
  simp only [hostOps0]
  after_results_simp
  exact (pack_left _ _ r).trans (column_apply _ r 0)

theorem host0_v17_1 (r : Fin 100000) :
    (StableHlo.after (hostOps0 (F := Ideal)) W (Proc.devRef .tc main_v17) : S100000x2.Idx → EReal) (ix2 r (1 : Fin 2))
      = kNorm (W (Proc.devRef .tc main_arg1)) (ix1 r) := by
  simp only [hostOps0]
  after_results_simp
  exact (pack_right _ _ r).trans (column_apply _ r 0)

/-! ## The stretch before the first layer's region -/

theorem host1_v30 :
    StableHlo.after (hostOps1 (F := Ideal)) W (Proc.devRef .tc main_v30)
      = kEdge95 (W (Proc.devRef .tc main_v19)) (W (Proc.devRef .tc main_arg1)) (W (Proc.devRef .tc main_arg2)) := by
  simp only [hostOps1]
  after_results_simp
  rfl

theorem host1_v31 (q : Fin 128) :
    (StableHlo.after (hostOps1 (F := Ideal)) W (Proc.devRef .tc main_v31) : S1x128.Idx → EReal) (ix2 (0 : Fin 1) q)
      = (W (Proc.devRef .tc main_arg5) : S128.Idx → EReal) (ix1 q) := by
  simp only [hostOps1]
  after_results_simp
  exact shapeCast_a_1a_apply _ shapeCasts_S128_S1x128 0 q

/-! ## The stretch before the second layer's region -/

theorem host2_v43 :
    StableHlo.after (hostOps2 (F := Ideal)) W (Proc.devRef .tc main_v43)
      = kEdge128 (W (Proc.devRef .tc main_v32)) (W (Proc.devRef .tc main_arg1)) (W (Proc.devRef .tc main_arg2)) := by
  simp only [hostOps2]
  after_results_simp
  rfl

theorem host2_v44 (q : Fin 128) :
    (StableHlo.after (hostOps2 (F := Ideal)) W (Proc.devRef .tc main_v44) : S1x128.Idx → EReal) (ix2 (0 : Fin 1) q)
      = (W (Proc.devRef .tc main_arg7) : S128.Idx → EReal) (ix1 q) := by
  simp only [hostOps2]
  after_results_simp
  exact shapeCast_a_1a_apply _ shapeCasts_S128_S1x128 0 q

/-! ## The stretch before the last layer's region -/

theorem host3_v56 :
    StableHlo.after (hostOps3 (F := Ideal)) W (Proc.devRef .tc main_v56)
      = kEdge128 (W (Proc.devRef .tc main_v45)) (W (Proc.devRef .tc main_arg1)) (W (Proc.devRef .tc main_arg2)) := by
  simp only [hostOps3]
  after_results_simp
  rfl

theorem host3_v57 (r : Fin 100000) :
    (StableHlo.after (hostOps3 (F := Ideal)) W (Proc.devRef .tc main_v57) : S100000x1.Idx → EReal) (ix2 r (0 : Fin 1))
      = (W (Proc.devRef .tc main_v14) : S100000.Idx → EReal) (ix1 r) := by
  simp only [hostOps3]
  after_results_simp
  exact shapeCast_a_a1_apply _ shapeCasts_S100000_S100000x1 r 0

theorem host3_v58 (q : Fin 128) :
    (StableHlo.after (hostOps3 (F := Ideal)) W (Proc.devRef .tc main_v58) : S1x128.Idx → EReal) (ix2 (0 : Fin 1) q)
      = (W (Proc.devRef .tc main_arg9) : S128.Idx → EReal) (ix1 q) := by
  simp only [hostOps3]
  after_results_simp
  exact shapeCast_a_1a_apply _ shapeCasts_S128_S1x128 0 q

/-! ## The stretch before the classifier's region -/

theorem host4_v62 :
    StableHlo.after (hostOps4 (F := Ideal)) W (Proc.devRef .tc main_v62)
      = kPool (W (Proc.devRef .tc main_v59)) (W (Proc.devRef .tc main_arg3)) := by
  simp only [hostOps4]
  after_results_simp
  rfl

theorem host4_v67 (g : Fin 1000) :
    (StableHlo.after (hostOps4 (F := Ideal)) W (Proc.devRef .tc main_v67) : S1000x1.Idx → EReal) (ix2 g (0 : Fin 1))
      = kCount (W (Proc.devRef .tc main_arg3)) (ix1 g) := by
  simp only [hostOps4]
  after_results_simp
  exact shapeCast_a_a1_apply _ shapeCasts_S1000_S1000x1 g 0

theorem host4_v68 (q : Fin 16) :
    (StableHlo.after (hostOps4 (F := Ideal)) W (Proc.devRef .tc main_v68) : S1x16.Idx → EReal) (ix2 (0 : Fin 1) q)
      = (W (Proc.devRef .tc main_arg11) : S16.Idx → EReal) (ix1 q) := by
  simp only [hostOps4]
  after_results_simp
  exact shapeCast_a_1a_apply _ shapeCasts_S16_S1x16 0 q

/-! ## What passes through a stretch untouched -/

/-- The twelve argument buffers. -/
def IsArg (b : Ref sig .tc) : Prop :=
  b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11

/-- The buffers later stretches and regions read long after they were written or launched: the arguments, the packed
    weight columns and the destination weights. -/
def Kept (b : Ref sig .tc) : Prop :=
  b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11 ∨ b = main_v17 ∨ b = main_v14

theorem Kept.of_isArg {b : Ref sig .tc} (h : IsArg b) : Kept b := by
  rcases h with rfl | rfl | rfl | rfl | rfl | rfl | rfl | rfl | rfl | rfl | rfl | rfl <;> simp [Kept]

theorem keepH0 (b : Ref sig .tc) (hb : IsArg b) :
    StableHlo.after (hostOps0 (F := Ideal)) W (Proc.devRef .tc b) = W (Proc.devRef .tc b) := by
  rcases hb with rfl | rfl | rfl | rfl | rfl | rfl | rfl | rfl | rfl | rfl | rfl | rfl <;> (simp only [hostOps0]; after_results_simp)

theorem keepH1 (b : Ref sig .tc) (hb : Kept b) :
    StableHlo.after (hostOps1 (F := Ideal)) W (Proc.devRef .tc b) = W (Proc.devRef .tc b) := by
  rcases hb with rfl | rfl | rfl | rfl | rfl | rfl | rfl | rfl | rfl | rfl | rfl | rfl | rfl | rfl <;> (simp only [hostOps1]; after_results_simp)

theorem keepH2 (b : Ref sig .tc) (hb : Kept b) :
    StableHlo.after (hostOps2 (F := Ideal)) W (Proc.devRef .tc b) = W (Proc.devRef .tc b) := by
  rcases hb with rfl | rfl | rfl | rfl | rfl | rfl | rfl | rfl | rfl | rfl | rfl | rfl | rfl | rfl <;> (simp only [hostOps2]; after_results_simp)

theorem keepH3 (b : Ref sig .tc) (hb : Kept b) :
    StableHlo.after (hostOps3 (F := Ideal)) W (Proc.devRef .tc b) = W (Proc.devRef .tc b) := by
  rcases hb with rfl | rfl | rfl | rfl | rfl | rfl | rfl | rfl | rfl | rfl | rfl | rfl | rfl | rfl <;> (simp only [hostOps3]; after_results_simp)

theorem keepH4 (b : Ref sig .tc) (hb : Kept b) :
    StableHlo.after (hostOps4 (F := Ideal)) W (Proc.devRef .tc b) = W (Proc.devRef .tc b) := by
  rcases hb with rfl | rfl | rfl | rfl | rfl | rfl | rfl | rfl | rfl | rfl | rfl | rfl | rfl | rfl <;> (simp only [hostOps4]; after_results_simp)

end Cert.KernelIdeal.Stage

end
-- ==== Proof.KernelChain.lean ====
/-
  The idealized kernel's buffers followed through its ten segments. The arguments, the packed weight columns and the
  destination weights are written once (or launched) and only read afterwards, so at every later boundary they hold what
  they held after the first stretch. With them each region's output array is its specification function of the previous
  region's output moved along the edges: the scaled input, the two middle layers, the last layer, and the classifier over
  the pooled sums and the counts.
-/
import proofs.«112282_j74019466379909_2_alg».proof.Proof.Region0
import proofs.«112282_j74019466379909_2_alg».proof.Proof.Region1
import proofs.«112282_j74019466379909_2_alg».proof.Proof.Region2
import proofs.«112282_j74019466379909_2_alg».proof.Proof.Region3
import proofs.«112282_j74019466379909_2_alg».proof.Proof.Region4
import proofs.«112282_j74019466379909_2_alg».proof.Proof.KernelHost

set_option maxRecDepth 16384

noncomputable section

namespace Cert.KernelIdeal.Stage

open Cert.KernelIdeal Cert.KernelIdeal.Gen Cert.GraphSpec
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-! ## A region leaves the kept buffers alone: none is an output array -/

theorem keepR0 (b : Ref sig .tc) (hb : Kept b) :
    W2 m ρ c (Proc.devRef .tc b) = W1 m ρ c (Proc.devRef .tc b) := by
  rcases hb with rfl | rfl | rfl | rfl | rfl | rfl | rfl | rfl | rfl | rfl | rfl | rfl | rfl | rfl
  all_goals first
    | exact W2_of_ne m ρ c _ (by decide)
    | exact (W2_arr m ρ c 0).trans (((dat0 (V1 m ρ) c).arrAt_in 0 rfl _).trans (A_eq0 (V1 m ρ) c 0))

theorem keepR1 (b : Ref sig .tc) (hb : Kept b) :
    W4 m ρ c (Proc.devRef .tc b) = W3 m ρ c (Proc.devRef .tc b) := by
  rcases hb with rfl | rfl | rfl | rfl | rfl | rfl | rfl | rfl | rfl | rfl | rfl | rfl | rfl | rfl
  all_goals first
    | exact W4_of_ne m ρ c _ (by decide)
    | exact (W4_arr m ρ c 1).trans (((dat1 (V3 m ρ) c).arrAt_in 1 rfl _).trans (A_eq1 (V3 m ρ) c 1))
    | exact (W4_arr m ρ c 2).trans (((dat1 (V3 m ρ) c).arrAt_in 2 rfl _).trans (A_eq1 (V3 m ρ) c 2))

theorem keepR2 (b : Ref sig .tc) (hb : Kept b) :
    W6 m ρ c (Proc.devRef .tc b) = W5 m ρ c (Proc.devRef .tc b) := by
  rcases hb with rfl | rfl | rfl | rfl | rfl | rfl | rfl | rfl | rfl | rfl | rfl | rfl | rfl | rfl
  all_goals first
    | exact W6_of_ne m ρ c _ (by decide)
    | exact (W6_arr m ρ c 1).trans (((dat2 (V5 m ρ) c).arrAt_in 1 rfl _).trans (A_eq2 (V5 m ρ) c 1))
    | exact (W6_arr m ρ c 2).trans (((dat2 (V5 m ρ) c).arrAt_in 2 rfl _).trans (A_eq2 (V5 m ρ) c 2))

theorem keepR3 (b : Ref sig .tc) (hb : Kept b) :
    W8 m ρ c (Proc.devRef .tc b) = W7 m ρ c (Proc.devRef .tc b) := by
  rcases hb with rfl | rfl | rfl | rfl | rfl | rfl | rfl | rfl | rfl | rfl | rfl | rfl | rfl | rfl
  all_goals first
    | exact W8_of_ne m ρ c _ (by decide)
    | exact (W8_arr m ρ c 2).trans (((dat3 (V7 m ρ) c).arrAt_in 2 rfl _).trans (A_eq3 (V7 m ρ) c 2))

theorem keepR4 (b : Ref sig .tc) (hb : Kept b) :
    W10 m ρ c (Proc.devRef .tc b) = W9 m ρ c (Proc.devRef .tc b) := by
  rcases hb with rfl | rfl | rfl | rfl | rfl | rfl | rfl | rfl | rfl | rfl | rfl | rfl | rfl | rfl
  all_goals first
    | exact W10_of_ne m ρ c _ (by decide)
    | exact (W10_arr m ρ c 2).trans (((dat4 (V9 m ρ) c).arrAt_in 2 rfl _).trans (A_eq4 (V9 m ρ) c 2))

/-! ## So at every boundary they hold what the first stretch left -/

theorem kept2 (b : Ref sig .tc) (hb : Kept b) : W2 m ρ c (Proc.devRef .tc b) = W1 m ρ c (Proc.devRef .tc b) := keepR0 m ρ c b hb
theorem kept3 (b : Ref sig .tc) (hb : Kept b) : W3 m ρ c (Proc.devRef .tc b) = W1 m ρ c (Proc.devRef .tc b) :=
  (keepH1 (W2 m ρ c) b hb).trans (kept2 m ρ c b hb)
theorem kept4 (b : Ref sig .tc) (hb : Kept b) : W4 m ρ c (Proc.devRef .tc b) = W1 m ρ c (Proc.devRef .tc b) :=
  (keepR1 m ρ c b hb).trans (kept3 m ρ c b hb)
theorem kept5 (b : Ref sig .tc) (hb : Kept b) : W5 m ρ c (Proc.devRef .tc b) = W1 m ρ c (Proc.devRef .tc b) :=
  (keepH2 (W4 m ρ c) b hb).trans (kept4 m ρ c b hb)
theorem kept6 (b : Ref sig .tc) (hb : Kept b) : W6 m ρ c (Proc.devRef .tc b) = W1 m ρ c (Proc.devRef .tc b) :=
  (keepR2 m ρ c b hb).trans (kept5 m ρ c b hb)
theorem kept7 (b : Ref sig .tc) (hb : Kept b) : W7 m ρ c (Proc.devRef .tc b) = W1 m ρ c (Proc.devRef .tc b) :=
  (keepH3 (W6 m ρ c) b hb).trans (kept6 m ρ c b hb)
theorem kept8 (b : Ref sig .tc) (hb : Kept b) : W8 m ρ c (Proc.devRef .tc b) = W1 m ρ c (Proc.devRef .tc b) :=
  (keepR3 m ρ c b hb).trans (kept7 m ρ c b hb)
theorem kept9 (b : Ref sig .tc) (hb : Kept b) : W9 m ρ c (Proc.devRef .tc b) = W1 m ρ c (Proc.devRef .tc b) :=
  (keepH4 (W8 m ρ c) b hb).trans (kept8 m ρ c b hb)

/-- After the first stretch an argument holds what it was launched with. -/
theorem W1_arg (b : Ref sig .tc) (hb : IsArg b) : W1 m ρ c (Proc.devRef .tc b) = m ((c : Thread nD τ).loc b) :=
  keepH0 (W0 m ρ c) b hb

/-! ## The values, region by region -/

/-- The source weights, the destination weights. -/
abbrev nS : FVec Ideal S100000 .f32 := kNorm (m ((c : Thread nD τ).loc main_arg1))
abbrev nD' : FVec Ideal S100000 .f32 := kNorm (m ((c : Thread nD τ).loc main_arg2))

/-- The scaled input. -/
abbrev H0 : FVec Ideal S100000x95 .bf16 := scaleRows (m ((c : Thread nD τ).loc main_arg0)) (nS m c)
/-- The first layer's output. -/
abbrev H1 : FVec Ideal S100000x128 .bf16 :=
  layerMid95 (kEdge95 (H0 m c) (m ((c : Thread nD τ).loc main_arg1)) (m ((c : Thread nD τ).loc main_arg2))) (nD' m c) (nS m c) (m ((c : Thread nD τ).loc main_arg4)) (m ((c : Thread nD τ).loc main_arg5))
/-- The second layer's output. -/
abbrev H2 : FVec Ideal S100000x128 .bf16 :=
  layerMid128 (kEdge128 (H1 m c) (m ((c : Thread nD τ).loc main_arg1)) (m ((c : Thread nD τ).loc main_arg2))) (nD' m c) (nS m c) (m ((c : Thread nD τ).loc main_arg6)) (m ((c : Thread nD τ).loc main_arg7))
/-- The last layer's output. -/
abbrev H3 : FVec Ideal S100000x128 .f32 :=
  layerLast (kEdge128 (H2 m c) (m ((c : Thread nD τ).loc main_arg1)) (m ((c : Thread nD τ).loc main_arg2))) (nD' m c) (m ((c : Thread nD τ).loc main_arg8)) (m ((c : Thread nD τ).loc main_arg9))
/-- The classifier's output. -/
abbrev kOut : FVec Ideal S1000x16 .f32 :=
  poolClassify (kPool (H3 m c) (m ((c : Thread nD τ).loc main_arg3))) (kCount (m ((c : Thread nD τ).loc main_arg3))) (m ((c : Thread nD τ).loc main_arg10)) (m ((c : Thread nD τ).loc main_arg11))

theorem stage0 : W2 m ρ c (Proc.devRef .tc main_v19) = H0 m c := by
  refine (W2_arr m ρ c 2).trans ((scaleArr (V1 m ρ) c (nS m c) (fun r => host0_v18 (W0 m ρ c) r)).trans ?_)
  show scaleRows (W1 m ρ c (Proc.devRef .tc main_arg0)) (nS m c) = _
  rw [W1_arg m ρ c main_arg0 (by unfold IsArg; decide : IsArg main_arg0)]

/-- The packed weight columns and a bias row, as a later region finds them. -/
theorem packed0 (r : Fin 100000) : (W1 m ρ c (Proc.devRef .tc main_v17) : S100000x2.Idx → EReal) (ix2 r (0 : Fin 2)) = nD' m c (ix1 r) :=
  host0_v17_0 (W0 m ρ c) r
theorem packed1 (r : Fin 100000) : (W1 m ρ c (Proc.devRef .tc main_v17) : S100000x2.Idx → EReal) (ix2 r (1 : Fin 2)) = nS m c (ix1 r) :=
  host0_v17_1 (W0 m ρ c) r

theorem stage1 : W4 m ρ c (Proc.devRef .tc main_v32) = H1 m c := by
  refine (W4_arr m ρ c 4).trans ((midArr1 (V3 m ρ) c (nD' m c) (nS m c) (m ((c : Thread nD τ).loc main_arg5)) ?_ ?_ ?_).trans ?_)
  · intro r
    show (W3 m ρ c (Proc.devRef .tc main_v17) : S100000x2.Idx → EReal) (ix2 r (0 : Fin 2)) = _
    rw [kept3 m ρ c main_v17 (by unfold Kept; decide : Kept main_v17)]
    exact packed0 m ρ c r
  · intro r
    show (W3 m ρ c (Proc.devRef .tc main_v17) : S100000x2.Idx → EReal) (ix2 r (1 : Fin 2)) = _
    rw [kept3 m ρ c main_v17 (by unfold Kept; decide : Kept main_v17)]
    exact packed1 m ρ c r
  · intro q
    refine (host1_v31 (W2 m ρ c) q).trans ?_
    rw [kept2 m ρ c main_arg5 (by unfold Kept; decide : Kept main_arg5), W1_arg m ρ c main_arg5 (by unfold IsArg; decide : IsArg main_arg5)]
  · show layerMid95 (W3 m ρ c (Proc.devRef .tc main_v30)) (nD' m c) (nS m c) (W3 m ρ c (Proc.devRef .tc main_arg4)) (m ((c : Thread nD τ).loc main_arg5)) = _
    rw [kept3 m ρ c main_arg4 (by unfold Kept; decide : Kept main_arg4), W1_arg m ρ c main_arg4 (by unfold IsArg; decide : IsArg main_arg4)]
    show layerMid95 (StableHlo.after hostOps1 (W2 m ρ c) (Proc.devRef .tc main_v30)) _ _ _ _ = _
    rw [host1_v30, stage0, kept2 m ρ c main_arg1 (by unfold Kept; decide : Kept main_arg1), kept2 m ρ c main_arg2 (by unfold Kept; decide : Kept main_arg2),
      W1_arg m ρ c main_arg1 (by unfold IsArg; decide : IsArg main_arg1), W1_arg m ρ c main_arg2 (by unfold IsArg; decide : IsArg main_arg2)]

theorem stage2 : W6 m ρ c (Proc.devRef .tc main_v45) = H2 m c := by
  refine (W6_arr m ρ c 4).trans ((midArr2 (V5 m ρ) c (nD' m c) (nS m c) (m ((c : Thread nD τ).loc main_arg7)) ?_ ?_ ?_).trans ?_)
  · intro r
    show (W5 m ρ c (Proc.devRef .tc main_v17) : S100000x2.Idx → EReal) (ix2 r (0 : Fin 2)) = _
    rw [kept5 m ρ c main_v17 (by unfold Kept; decide : Kept main_v17)]
    exact packed0 m ρ c r
  · intro r
    show (W5 m ρ c (Proc.devRef .tc main_v17) : S100000x2.Idx → EReal) (ix2 r (1 : Fin 2)) = _
    rw [kept5 m ρ c main_v17 (by unfold Kept; decide : Kept main_v17)]
    exact packed1 m ρ c r
  · intro q
    refine (host2_v44 (W4 m ρ c) q).trans ?_
    rw [kept4 m ρ c main_arg7 (by unfold Kept; decide : Kept main_arg7), W1_arg m ρ c main_arg7 (by unfold IsArg; decide : IsArg main_arg7)]
  · show layerMid128 (W5 m ρ c (Proc.devRef .tc main_v43)) (nD' m c) (nS m c) (W5 m ρ c (Proc.devRef .tc main_arg6)) (m ((c : Thread nD τ).loc main_arg7)) = _
    rw [kept5 m ρ c main_arg6 (by unfold Kept; decide : Kept main_arg6), W1_arg m ρ c main_arg6 (by unfold IsArg; decide : IsArg main_arg6)]
    show layerMid128 (StableHlo.after hostOps2 (W4 m ρ c) (Proc.devRef .tc main_v43)) _ _ _ _ = _
    rw [host2_v43, stage1, kept4 m ρ c main_arg1 (by unfold Kept; decide : Kept main_arg1), kept4 m ρ c main_arg2 (by unfold Kept; decide : Kept main_arg2),
      W1_arg m ρ c main_arg1 (by unfold IsArg; decide : IsArg main_arg1), W1_arg m ρ c main_arg2 (by unfold IsArg; decide : IsArg main_arg2)]

theorem stage3 : W8 m ρ c (Proc.devRef .tc main_v59) = H3 m c := by
  refine (W8_arr m ρ c 4).trans ((lastArr (V7 m ρ) c (nD' m c) (m ((c : Thread nD τ).loc main_arg9)) ?_ ?_).trans ?_)
  · intro r
    refine (host3_v57 (W6 m ρ c) r).trans ?_
    rw [kept6 m ρ c main_v14 (by unfold Kept; decide : Kept main_v14)]
    show (StableHlo.after hostOps0 (W0 m ρ c) (Proc.devRef .tc main_v14) : S100000.Idx → EReal) (ix1 r) = _
    rw [host0_v14]
  · intro q
    refine (host3_v58 (W6 m ρ c) q).trans ?_
    rw [kept6 m ρ c main_arg9 (by unfold Kept; decide : Kept main_arg9), W1_arg m ρ c main_arg9 (by unfold IsArg; decide : IsArg main_arg9)]
  · show layerLast (W7 m ρ c (Proc.devRef .tc main_v56)) (nD' m c) (W7 m ρ c (Proc.devRef .tc main_arg8)) (m ((c : Thread nD τ).loc main_arg9)) = _
    rw [kept7 m ρ c main_arg8 (by unfold Kept; decide : Kept main_arg8), W1_arg m ρ c main_arg8 (by unfold IsArg; decide : IsArg main_arg8)]
    show layerLast (StableHlo.after hostOps3 (W6 m ρ c) (Proc.devRef .tc main_v56)) _ _ _ = _
    rw [host3_v56, stage2, kept6 m ρ c main_arg1 (by unfold Kept; decide : Kept main_arg1), kept6 m ρ c main_arg2 (by unfold Kept; decide : Kept main_arg2),
      W1_arg m ρ c main_arg1 (by unfold IsArg; decide : IsArg main_arg1), W1_arg m ρ c main_arg2 (by unfold IsArg; decide : IsArg main_arg2)]

/-- THE KERNEL'S RESULT BUFFER after the last segment. -/
theorem stage4 : W10 m ρ c (Proc.devRef .tc main_v69) = kOut m c := by
  refine (W10_arr m ρ c 4).trans ((classArr (V9 m ρ) c (kCount (m ((c : Thread nD τ).loc main_arg3))) (m ((c : Thread nD τ).loc main_arg11)) ?_ ?_).trans ?_)
  · intro g
    refine (host4_v67 (W8 m ρ c) g).trans ?_
    rw [kept8 m ρ c main_arg3 (by unfold Kept; decide : Kept main_arg3), W1_arg m ρ c main_arg3 (by unfold IsArg; decide : IsArg main_arg3)]
  · intro q
    refine (host4_v68 (W8 m ρ c) q).trans ?_
    rw [kept8 m ρ c main_arg11 (by unfold Kept; decide : Kept main_arg11), W1_arg m ρ c main_arg11 (by unfold IsArg; decide : IsArg main_arg11)]
  · show poolClassify (W9 m ρ c (Proc.devRef .tc main_v62)) (kCount (m ((c : Thread nD τ).loc main_arg3))) (W9 m ρ c (Proc.devRef .tc main_arg10)) (m ((c : Thread nD τ).loc main_arg11)) = _
    rw [kept9 m ρ c main_arg10 (by unfold Kept; decide : Kept main_arg10), W1_arg m ρ c main_arg10 (by unfold IsArg; decide : IsArg main_arg10)]
    show poolClassify (StableHlo.after hostOps4 (W8 m ρ c) (Proc.devRef .tc main_v62)) _ _ _ = _
    rw [host4_v62, stage3, kept8 m ρ c main_arg3 (by unfold Kept; decide : Kept main_arg3), W1_arg m ρ c main_arg3 (by unfold IsArg; decide : IsArg main_arg3)]

end Cert.KernelIdeal.Stage

end
-- ==== Proof.RefValue.lean ====
/-
  The reference program's term, stage by stage, as the specification's functions. The degree weights are the reference's own
  (`val_main_v10` from the sources, `val_main_v12` from the destinations); each layer reads: the aggregate's row times the
  destination weight, into the matrix, plus the bias, the negative part cut, times the source weight — index by index the
  specification's `layerMid` / `layerLast`; the pooled sums over the bounded counts into the classifier are `poolClassify`,
  the bound's two operands in the other order (a maximum is symmetric). The gathers and scatter-adds between the layers are
  kept as they are spelt, as functions of the node array they move.
-/
import proofs.«112282_j74019466379909_2_alg».proof.Proof.Gen.ReferenceIdeal.Read
import proofs.«112282_j74019466379909_2_alg».proof.Proof.Spec
import Idealize.ShloMosaic.Lib.ValueIdx
import Idealize.ShloMosaic.PureOps.Ideal.Laws

set_option maxRecDepth 16384

noncomputable section

namespace Cert.ReferenceIdeal.Stage

open Cert.ReferenceIdeal Cert.ReferenceIdeal.Gen Cert.ReferenceIdeal.Read Cert.GraphSpec
open Idealize.ShloMosaic Idealize.ShloMosaic.TcCoe Idealize.ShloMosaic.ValueIdx Idealize.SL.Sem

variable (x0 : (⟨S100000x95, .f32⟩ : BufTy).Contents (Elt Ideal)) (x1 x2 : (⟨S1600000, .i32⟩ : BufTy).Contents (Elt Ideal)) (x3 : (⟨S100000, .i32⟩ : BufTy).Contents (Elt Ideal))
  (x4 : (⟨S95x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal))
  (x10 : (⟨S128x16, .f32⟩ : BufTy).Contents (Elt Ideal)) (x11 : (⟨S16, .f32⟩ : BufTy).Contents (Elt Ideal))

/-- The input with every row times its source weight. -/
theorem ref_scale : val_main_v15 (F := Ideal) x0 x1 = scaleRows x0 (val_main_v10 (F := Ideal) x1) := by
  funext i
  obtain ⟨r, q, rfl⟩ : ∃ (r : Fin 100000) (q : Fin 95), i = ix2 r q := ⟨i 0, i 1, eq_ix2 i⟩
  rw [val_main_v15_apply, val_main_v14_apply, val_main_v13_apply]
  have e : idx_main_v13 (idx_main_v14 (ix2 r q)) = ix1 r := funext fun a => Fin.ext (by
    match a with
    | ⟨0, _⟩ => rfl)
  rw [e]
  rfl

/-- The first layer. -/
theorem ref_layer1 : val_main_v36 (F := Ideal) x0 x1 x2 x4 x5
    = layerMid95 (val_main_v25 (F := Ideal) x0 x1 x2) (val_main_v12 (F := Ideal) x2) (val_main_v10 (F := Ideal) x1) x4 x5 := by
  funext i
  obtain ⟨r, q, rfl⟩ : ∃ (r : Fin 100000) (q : Fin 128), i = ix2 r q := ⟨i 0, i 1, eq_ix2 i⟩
  rw [val_main_v36_apply, val_main_v33_apply, val_main_v32_apply, val_main_v29_apply, val_main_v31_apply, val_main_v30_apply,
    val_main_v35_apply, val_main_v34_apply, val_main_call2_v0_apply, val_main_call2_cst_apply]
  have eb : idx_main_v30 (idx_main_v31 (ix2 r q)) = ix1 q := funext fun a => Fin.ext (by
    match a with
    | ⟨0, _⟩ => rfl)
  have es : idx_main_v34 (idx_main_v35 (ix2 r q)) = ix1 r := funext fun a => Fin.ext (by
    match a with
    | ⟨0, _⟩ => rfl)
  rw [eb, es]
  show max ((∑ k : Fin 95, _) + _) _ * _
    = max ((∑ k : Fin 95, (val_main_v25 (F := Ideal) x0 x1 x2 (ix2 r k) * val_main_v12 (F := Ideal) x2 (ix1 r)) * x4 (ix2 k q)) + x5 (ix1 q)) zeroW
      * val_main_v10 (F := Ideal) x1 (ix1 r)
  refine congrArg₂ (· * ·) (congrArg₂ max (congrArg₂ (· + ·) (Finset.sum_congr rfl fun k _ => ?_) rfl) rfl) rfl
  rw [val_main_v28_apply, val_main_v27_apply, val_main_v26_apply]
  have el : lidx_main_v29 (ix2 r q) k = ix2 r k := funext fun a => Fin.ext (by
    match a with
    | ⟨0, _⟩ => rfl
    | ⟨1, _⟩ => rfl)
  have er : ridx_main_v29 (ix2 r q) k = ix2 k q := funext fun a => Fin.ext (by
    match a with
    | ⟨0, _⟩ => rfl
    | ⟨1, _⟩ => rfl)
  have ed : idx_main_v26 (idx_main_v27 (ix2 r k)) = ix1 r := funext fun a => Fin.ext (by
    match a with
    | ⟨0, _⟩ => rfl)
  rw [el, er, ed]
  rfl

/-- The first edge aggregate, as a function of the node array it moves. -/
def rEdge95 (h : FVec Ideal S100000x95 .f32) (x1 x2 : IVec S1600000 32) : FVec Ideal S100000x95 .f32 :=
  Host.scatterAdd (F := Ideal) (φ := .f32) scatter_S100000x95_S1600000x1_S1600000x95_1_0_0_1 (val_main_v23 (F := Ideal)) (val_main_v24 (F := Ideal) x2)
    (Host.gather gather_S100000x95_S1600000x1_S1600000x95_1_0_n_n_0_1_195 h (val_main_v21 (F := Ideal) x1))
theorem ref_agg1 : val_main_v25 (F := Ideal) x0 x1 x2 = rEdge95 (val_main_v15 (F := Ideal) x0 x1) x1 x2 := rfl

/-- The second edge aggregate. -/
def rEdge128a (h : FVec Ideal S100000x128 .f32) (x1 x2 : IVec S1600000 32) : FVec Ideal S100000x128 .f32 :=
  Host.scatterAdd (F := Ideal) (φ := .f32) scatter_S100000x128_S1600000x1_S1600000x128_1_0_0_1 (val_main_v44 (F := Ideal)) (val_main_v45 (F := Ideal) x2)
    (Host.gather gather_S100000x128_S1600000x1_S1600000x128_1_0_n_n_0_1_1128 h (val_main_v42 (F := Ideal) x1))
theorem ref_agg2 : val_main_v46 (F := Ideal) x0 x1 x2 x4 x5 = rEdge128a (val_main_v36 (F := Ideal) x0 x1 x2 x4 x5) x1 x2 := rfl

/-- The third edge aggregate. -/
def rEdge128b (h : FVec Ideal S100000x128 .f32) (x1 x2 : IVec S1600000 32) : FVec Ideal S100000x128 .f32 :=
  Host.scatterAdd (F := Ideal) (φ := .f32) scatter_S100000x128_S1600000x1_S1600000x128_1_0_0_1 (val_main_v65 (F := Ideal)) (val_main_v66 (F := Ideal) x2)
    (Host.gather gather_S100000x128_S1600000x1_S1600000x128_1_0_n_n_0_1_1128 h (val_main_v63 (F := Ideal) x1))
theorem ref_agg3 : val_main_v67 (F := Ideal) x0 x1 x2 x4 x5 x6 x7 = rEdge128b (val_main_v57 (F := Ideal) x0 x1 x2 x4 x5 x6 x7) x1 x2 := rfl

/-- Each graph's sum of its nodes' rows. -/
def rPool (h : FVec Ideal S100000x128 .f32) (x3 : IVec S100000 32) : FVec Ideal S1000x128 .f32 :=
  Host.scatterAdd (F := Ideal) (φ := .f32) scatter_S1000x128_S100000x1_S100000x128_1_0_0_1 (val_main_v76 (F := Ideal)) (val_main_v77 (F := Ideal) x3) h
theorem ref_pool : val_main_v78 (F := Ideal) x0 x1 x2 x3 x4 x5 x6 x7 x8 x9 = rPool (val_main_v75 (F := Ideal) x0 x1 x2 x4 x5 x6 x7 x8 x9) x3 := rfl

/-- The second layer. -/
theorem ref_layer2 : val_main_v57 (F := Ideal) x0 x1 x2 x4 x5 x6 x7
    = layerMid128 (val_main_v46 (F := Ideal) x0 x1 x2 x4 x5) (val_main_v12 (F := Ideal) x2) (val_main_v10 (F := Ideal) x1) x6 x7 := by
  funext i
  obtain ⟨r, q, rfl⟩ : ∃ (r : Fin 100000) (q : Fin 128), i = ix2 r q := ⟨i 0, i 1, eq_ix2 i⟩
  rw [val_main_v57_apply, val_main_v54_apply, val_main_v53_apply, val_main_v50_apply, val_main_v52_apply, val_main_v51_apply,
    val_main_v56_apply, val_main_v55_apply, val_main_call3_v0_apply, val_main_call3_cst_apply]
  have eb : idx_main_v51 (idx_main_v52 (ix2 r q)) = ix1 q := funext fun a => Fin.ext (by
    match a with
    | ⟨0, _⟩ => rfl)
  have es : idx_main_v55 (idx_main_v56 (ix2 r q)) = ix1 r := funext fun a => Fin.ext (by
    match a with
    | ⟨0, _⟩ => rfl)
  rw [eb, es]
  show max ((∑ k : Fin 128, _) + _) _ * _
    = max ((∑ k : Fin 128, (val_main_v46 (F := Ideal) x0 x1 x2 x4 x5 (ix2 r k) * val_main_v12 (F := Ideal) x2 (ix1 r)) * x6 (ix2 k q)) + x7 (ix1 q)) zeroW
      * val_main_v10 (F := Ideal) x1 (ix1 r)
  refine congrArg₂ (· * ·) (congrArg₂ max (congrArg₂ (· + ·) (Finset.sum_congr rfl fun k _ => ?_) rfl) rfl) rfl
  rw [val_main_v49_apply, val_main_v48_apply, val_main_v47_apply]
  have el : lidx_main_v50 (ix2 r q) k = ix2 r k := funext fun a => Fin.ext (by
    match a with
    | ⟨0, _⟩ => rfl
    | ⟨1, _⟩ => rfl)
  have er : ridx_main_v50 (ix2 r q) k = ix2 k q := funext fun a => Fin.ext (by
    match a with
    | ⟨0, _⟩ => rfl
    | ⟨1, _⟩ => rfl)
  have ed : idx_main_v47 (idx_main_v48 (ix2 r k)) = ix1 r := funext fun a => Fin.ext (by
    match a with
    | ⟨0, _⟩ => rfl)
  rw [el, er, ed]
  rfl

/-- The last layer. -/
theorem ref_layer3 : val_main_v75 (F := Ideal) x0 x1 x2 x4 x5 x6 x7 x8 x9
    = layerLast (val_main_v67 (F := Ideal) x0 x1 x2 x4 x5 x6 x7) (val_main_v12 (F := Ideal) x2) x8 x9 := by
  funext i
  obtain ⟨r, q, rfl⟩ : ∃ (r : Fin 100000) (q : Fin 128), i = ix2 r q := ⟨i 0, i 1, eq_ix2 i⟩
  rw [val_main_v75_apply, val_main_v74_apply, val_main_v71_apply, val_main_v73_apply, val_main_v72_apply,
    val_main_call4_v0_apply, val_main_call4_cst_apply]
  have eb : idx_main_v72 (idx_main_v73 (ix2 r q)) = ix1 q := funext fun a => Fin.ext (by
    match a with
    | ⟨0, _⟩ => rfl)
  rw [eb]
  show max ((∑ k : Fin 128, _) + _) _
    = max ((∑ k : Fin 128, (val_main_v67 (F := Ideal) x0 x1 x2 x4 x5 x6 x7 (ix2 r k) * val_main_v12 (F := Ideal) x2 (ix1 r)) * x8 (ix2 k q)) + x9 (ix1 q)) zeroW
  refine congrArg₂ max (congrArg₂ (· + ·) (Finset.sum_congr rfl fun k _ => ?_) rfl) rfl
  rw [val_main_v70_apply, val_main_v69_apply, val_main_v68_apply]
  have el : lidx_main_v71 (ix2 r q) k = ix2 r k := funext fun a => Fin.ext (by
    match a with
    | ⟨0, _⟩ => rfl
    | ⟨1, _⟩ => rfl)
  have er : ridx_main_v71 (ix2 r q) k = ix2 k q := funext fun a => Fin.ext (by
    match a with
    | ⟨0, _⟩ => rfl
    | ⟨1, _⟩ => rfl)
  have ed : idx_main_v68 (idx_main_v69 (ix2 r k)) = ix1 r := funext fun a => Fin.ext (by
    match a with
    | ⟨0, _⟩ => rfl)
  rw [el, er, ed]
  rfl

/-- The mean pool and the classifier: the count's lower bound is the maximum with one, in either order. -/
theorem ref_final : val_main_v90 (F := Ideal) x0 x1 x2 x3 x4 x5 x6 x7 x8 x9 x10 x11
    = poolClassify (val_main_v78 (F := Ideal) x0 x1 x2 x3 x4 x5 x6 x7 x8 x9) (val_main_v82 (F := Ideal) x3) x10 x11 := by
  funext i
  obtain ⟨g, q, rfl⟩ : ∃ (g : Fin 1000) (q : Fin 16), i = ix2 g q := ⟨i 0, i 1, eq_ix2 i⟩
  rw [val_main_v90_apply, val_main_v87_apply, val_main_v89_apply, val_main_v88_apply]
  have eb : idx_main_v88 (idx_main_v89 (ix2 g q)) = ix1 q := funext fun a => Fin.ext (by
    match a with
    | ⟨0, _⟩ => rfl)
  rw [eb]
  show (∑ k : Fin 128, _) + _
    = (∑ k : Fin 128, Ideal.div (val_main_v78 (F := Ideal) x0 x1 x2 x3 x4 x5 x6 x7 x8 x9 (ix2 g k)) (max (val_main_v82 (F := Ideal) x3 (ix1 g)) oneW) * x10 (ix2 k q))
      + x11 (ix1 q)
  refine congrArg₂ (· + ·) (Finset.sum_congr rfl fun k _ => ?_) rfl
  rw [val_main_v86_apply, val_main_v85_apply, val_main_v84_apply, val_main_v83_apply, val_main_call5_v1_apply, val_main_call5_v0_apply,
    val_main_cst_17_apply]
  have el : lidx_main_v87 (ix2 g q) k = ix2 g k := funext fun a => Fin.ext (by
    match a with
    | ⟨0, _⟩ => rfl
    | ⟨1, _⟩ => rfl)
  have er : ridx_main_v87 (ix2 g q) k = ix2 k q := funext fun a => Fin.ext (by
    match a with
    | ⟨0, _⟩ => rfl
    | ⟨1, _⟩ => rfl)
  have ed : idx_main_v84 (idx_main_v85 (ix2 g k)) = ix1 g := funext fun a => Fin.ext (by
    match a with
    | ⟨0, _⟩ => rfl)
  rw [el, er, ed]
  show Ideal.div _ (max oneW (val_main_v82 (F := Ideal) x3 (ix1 g))) * _ = _
  rw [max_comm]

/-- THE REFERENCE'S RESULT as the composition of the specification's stages and the moves between them. -/
def refOut : FVec Ideal S1000x16 .f32 :=
  poolClassify
    (rPool
      (layerLast
        (rEdge128b
          (layerMid128
            (rEdge128a
              (layerMid95 (rEdge95 (scaleRows x0 (val_main_v10 (F := Ideal) x1)) x1 x2)
                (val_main_v12 (F := Ideal) x2) (val_main_v10 (F := Ideal) x1) x4 x5)
              x1 x2)
            (val_main_v12 (F := Ideal) x2) (val_main_v10 (F := Ideal) x1) x6 x7)
          x1 x2)
        (val_main_v12 (F := Ideal) x2) x8 x9)
      x3)
    (val_main_v82 (F := Ideal) x3) x10 x11

theorem ref_value : val_main_v90 (F := Ideal) x0 x1 x2 x3 x4 x5 x6 x7 x8 x9 x10 x11 = refOut x0 x1 x2 x3 x4 x5 x6 x7 x8 x9 x10 x11 := by
  rw [ref_final, ref_pool, ref_layer3, ref_agg3, ref_layer2, ref_agg2, ref_layer1, ref_agg1, ref_scale]
  rfl

end Cert.ReferenceIdeal.Stage

end
-- ==== Proof.Bridge.lean ====
/-
  The two programs' results are one function of the arguments. Stage by stage both are the specification's functions; what
  is left between them is spelling: the node weights bound the degree by the maximum with one, its operands in either
  order (a maximum is symmetric); the kernel's moves along the edges carry the node array in a narrower float format and
  widen it after the gather, and a change of format is the identity on the extended reals; the two programs' records of
  the gathers' and scatters' dimension numbers are the same literals.
-/
import proofs.«112282_j74019466379909_2_alg».proof.Proof.KernelChain
import proofs.«112282_j74019466379909_2_alg».proof.Proof.RefValue

set_option maxRecDepth 16384

noncomputable section

namespace Cert.Bridge

open Cert.KernelIdeal Cert.KernelIdeal.Gen Cert.GraphSpec Cert.KernelIdeal.Stage Cert.ReferenceIdeal.Stage Cert.ReferenceIdeal.Read
open Idealize.ShloMosaic Idealize.ShloMosaic.TcCoe Idealize.ShloMosaic.ValueIdx Idealize.SL.Sem

/-- A scatter-add of equal operands under equal dimension numbers (the scatter itself is never opened). -/
theorem scatterAdd_congr {s si u : Shape} {w : Nat} {d d' : ScatterDims s si u} (hd : d = d')
    {x x' : FVec Ideal s .f32} (hx : x = x') {i i' : IVec si w} (hi : i = i') {p p' : FVec Ideal u .f32} (hp : p = p') :
    Host.scatterAdd (F := Ideal) (φ := .f32) d x i p = Host.scatterAdd (F := Ideal) (φ := .f32) d' x' i' p' := by
  subst hd hx hi hp; rfl

/-- A gather of equal operands under equal dimension numbers (the gather itself is never opened). -/
theorem gather_congr {s si t : Shape} {w : Nat} {d d' : GatherDims s si t} (hd : d = d') {x x' : s.Idx → EReal} (hx : x = x')
    {i i' : IVec si w} (hi : i = i') : Host.gather d x i = Host.gather d' x' i' := by
  subst hd hx hi; rfl

/-- Widening the float format is the identity on the extended reals. -/
theorem widen_id {s : Shape} (v : FVec Ideal s .bf16) : extf .f32 v bitsLt_bf16_f32 = v := rfl

/-- The degrees: one added at each edge's endpoint. -/
theorem deg_src (x1 : IVec Cert.KernelIdeal.S1600000 32) :
    Host.scatterAdd (F := Ideal) (φ := .f32) Cert.KernelIdeal.scatter_S100000_S1600000x1_S1600000_n_0_0_1
        (broadcastInDim Cert.KernelIdeal.S100000 ![] bcast_S_S100000 (constant (F := Ideal) Cert.KernelIdeal.S_ .f32 0x00000000#32))
        (broadcastInDim Cert.KernelIdeal.S1600000x1 ![0] bcast_S1600000_S1600000x1_0 x1)
        (broadcastInDim Cert.KernelIdeal.S1600000 ![] bcast_S_S1600000 (constant (F := Ideal) Cert.KernelIdeal.S_ .f32 0x3F800000#32))
      = val_main_v3 (F := Ideal) x1 := by
  unfold val_main_v3
  exact scatterAdd_congr rfl rfl rfl rfl
theorem deg_dst (x2 : IVec Cert.KernelIdeal.S1600000 32) :
    Host.scatterAdd (F := Ideal) (φ := .f32) Cert.KernelIdeal.scatter_S100000_S1600000x1_S1600000_n_0_0_1
        (broadcastInDim Cert.KernelIdeal.S100000 ![] bcast_S_S100000 (constant (F := Ideal) Cert.KernelIdeal.S_ .f32 0x00000000#32))
        (broadcastInDim Cert.KernelIdeal.S1600000x1 ![0] bcast_S1600000_S1600000x1_0 x2)
        (broadcastInDim Cert.KernelIdeal.S1600000 ![] bcast_S_S1600000 (constant (F := Ideal) Cert.KernelIdeal.S_ .f32 0x3F800000#32))
      = val_main_v7 (F := Ideal) x2 := by
  unfold val_main_v7
  exact scatterAdd_congr rfl rfl rfl rfl

/-- A maximum's operands in either order. -/
theorem maximumf_comm {s : Shape} (a b : FVec Ideal s .f32) : maximumf a b = maximumf b a :=
  funext fun i => max_comm (a i) (b i)

/-- The degree weights: the two spellings bound the degree below by one with the maximum's operands swapped. -/
theorem norm_src (x1 : IVec Cert.KernelIdeal.S1600000 32) : kNorm x1 = val_main_v10 (F := Ideal) x1 := by
  unfold kNorm val_main_v10 val_main_v4
  rw [deg_src x1, maximumf_comm]
  rfl

theorem norm_dst (x2 : IVec Cert.KernelIdeal.S1600000 32) : kNorm x2 = val_main_v12 (F := Ideal) x2 := by
  unfold kNorm val_main_v12 val_main_v8
  rw [deg_dst x2, maximumf_comm]
  rfl

/-- The row each edge gathers, in the three places the reference spells it. -/
theorem wrap1 (x1 : IVec Cert.KernelIdeal.S1600000 32) : kWrap x1 = val_main_v21 (F := Ideal) x1 := rfl
theorem wrap2 (x1 : IVec Cert.KernelIdeal.S1600000 32) : kWrap x1 = val_main_v42 (F := Ideal) x1 := rfl
theorem wrap3 (x1 : IVec Cert.KernelIdeal.S1600000 32) : kWrap x1 = val_main_v63 (F := Ideal) x1 := rfl

/-- The moves along the edges and into the graphs are the same functions of the node array they move. -/
theorem edge95 (h : NodesX95.Idx → EReal) (x1 x2 : IVec Cert.KernelIdeal.S1600000 32) : kEdge95 h x1 x2 = rEdge95 h x1 x2 := by
  unfold kEdge95 rEdge95
  exact scatterAdd_congr rfl rfl rfl ((widen_id _).trans (gather_congr rfl rfl (wrap1 x1)))
theorem edge128a (h : NodesX128.Idx → EReal) (x1 x2 : IVec Cert.KernelIdeal.S1600000 32) : kEdge128 h x1 x2 = rEdge128a h x1 x2 := by
  unfold kEdge128 rEdge128a
  exact scatterAdd_congr rfl rfl rfl ((widen_id _).trans (gather_congr rfl rfl (wrap2 x1)))
theorem edge128b (h : NodesX128.Idx → EReal) (x1 x2 : IVec Cert.KernelIdeal.S1600000 32) : kEdge128 h x1 x2 = rEdge128b h x1 x2 := by
  unfold kEdge128 rEdge128b
  exact scatterAdd_congr rfl rfl rfl ((widen_id _).trans (gather_congr rfl rfl (wrap3 x1)))
theorem pool_eq (h : NodesX128.Idx → EReal) (x3 : IVec Cert.KernelIdeal.S100000 32) : kPool h x3 = rPool h x3 := by
  unfold kPool rPool
  exact scatterAdd_congr rfl rfl rfl rfl
theorem count_eq (x3 : IVec Cert.KernelIdeal.S100000 32) : kCount x3 = val_main_v82 (F := Ideal) x3 := by
  unfold kCount val_main_v82
  exact scatterAdd_congr rfl rfl rfl rfl

variable (m : (ℓ : Loc Cert.KernelIdeal.nD Cert.KernelIdeal.τ Cert.KernelIdeal.sig) → Buf (Elt Ideal) ℓ) (c : Dev Cert.KernelIdeal.nD)

/-- THE KERNEL'S RESULT IS THE REFERENCE'S, as functions of the kernel's argument arrays. -/
theorem out_eq : kOut m c = refOut (m ((c : Thread Cert.KernelIdeal.nD Cert.KernelIdeal.τ).loc Cert.KernelIdeal.main_arg0))
    (m ((c : Thread Cert.KernelIdeal.nD Cert.KernelIdeal.τ).loc Cert.KernelIdeal.main_arg1))
    (m ((c : Thread Cert.KernelIdeal.nD Cert.KernelIdeal.τ).loc Cert.KernelIdeal.main_arg2))
    (m ((c : Thread Cert.KernelIdeal.nD Cert.KernelIdeal.τ).loc Cert.KernelIdeal.main_arg3))
    (m ((c : Thread Cert.KernelIdeal.nD Cert.KernelIdeal.τ).loc Cert.KernelIdeal.main_arg4))
    (m ((c : Thread Cert.KernelIdeal.nD Cert.KernelIdeal.τ).loc Cert.KernelIdeal.main_arg5))
    (m ((c : Thread Cert.KernelIdeal.nD Cert.KernelIdeal.τ).loc Cert.KernelIdeal.main_arg6))
    (m ((c : Thread Cert.KernelIdeal.nD Cert.KernelIdeal.τ).loc Cert.KernelIdeal.main_arg7))
    (m ((c : Thread Cert.KernelIdeal.nD Cert.KernelIdeal.τ).loc Cert.KernelIdeal.main_arg8))
    (m ((c : Thread Cert.KernelIdeal.nD Cert.KernelIdeal.τ).loc Cert.KernelIdeal.main_arg9))
    (m ((c : Thread Cert.KernelIdeal.nD Cert.KernelIdeal.τ).loc Cert.KernelIdeal.main_arg10))
    (m ((c : Thread Cert.KernelIdeal.nD Cert.KernelIdeal.τ).loc Cert.KernelIdeal.main_arg11)) := by
  have e0 : H0 m c = scaleRows (m ((c : Thread Cert.KernelIdeal.nD Cert.KernelIdeal.τ).loc Cert.KernelIdeal.main_arg0)) (val_main_v10 (F := Ideal) (m ((c : Thread Cert.KernelIdeal.nD Cert.KernelIdeal.τ).loc Cert.KernelIdeal.main_arg1))) := by
    show scaleRows _ (kNorm _) = _
    rw [norm_src (m ((c : Thread Cert.KernelIdeal.nD Cert.KernelIdeal.τ).loc Cert.KernelIdeal.main_arg1))]
  have e1 : H1 m c = layerMid95 (rEdge95 (scaleRows (m ((c : Thread Cert.KernelIdeal.nD Cert.KernelIdeal.τ).loc Cert.KernelIdeal.main_arg0)) (val_main_v10 (F := Ideal) (m ((c : Thread Cert.KernelIdeal.nD Cert.KernelIdeal.τ).loc Cert.KernelIdeal.main_arg1)))) (m ((c : Thread Cert.KernelIdeal.nD Cert.KernelIdeal.τ).loc Cert.KernelIdeal.main_arg1)) (m ((c : Thread Cert.KernelIdeal.nD Cert.KernelIdeal.τ).loc Cert.KernelIdeal.main_arg2)))
      (val_main_v12 (F := Ideal) (m ((c : Thread Cert.KernelIdeal.nD Cert.KernelIdeal.τ).loc Cert.KernelIdeal.main_arg2))) (val_main_v10 (F := Ideal) (m ((c : Thread Cert.KernelIdeal.nD Cert.KernelIdeal.τ).loc Cert.KernelIdeal.main_arg1))) (m ((c : Thread Cert.KernelIdeal.nD Cert.KernelIdeal.τ).loc Cert.KernelIdeal.main_arg4)) (m ((c : Thread Cert.KernelIdeal.nD Cert.KernelIdeal.τ).loc Cert.KernelIdeal.main_arg5)) := by
    show layerMid95 (kEdge95 (H0 m c) _ _) (kNorm _) (kNorm _) _ _ = _
    rw [e0, edge95, norm_src (m ((c : Thread Cert.KernelIdeal.nD Cert.KernelIdeal.τ).loc Cert.KernelIdeal.main_arg1)), norm_dst (m ((c : Thread Cert.KernelIdeal.nD Cert.KernelIdeal.τ).loc Cert.KernelIdeal.main_arg2))]
  have e2 : H2 m c = layerMid128 (rEdge128a (H1 m c) (m ((c : Thread Cert.KernelIdeal.nD Cert.KernelIdeal.τ).loc Cert.KernelIdeal.main_arg1)) (m ((c : Thread Cert.KernelIdeal.nD Cert.KernelIdeal.τ).loc Cert.KernelIdeal.main_arg2)))
      (val_main_v12 (F := Ideal) (m ((c : Thread Cert.KernelIdeal.nD Cert.KernelIdeal.τ).loc Cert.KernelIdeal.main_arg2))) (val_main_v10 (F := Ideal) (m ((c : Thread Cert.KernelIdeal.nD Cert.KernelIdeal.τ).loc Cert.KernelIdeal.main_arg1))) (m ((c : Thread Cert.KernelIdeal.nD Cert.KernelIdeal.τ).loc Cert.KernelIdeal.main_arg6)) (m ((c : Thread Cert.KernelIdeal.nD Cert.KernelIdeal.τ).loc Cert.KernelIdeal.main_arg7)) := by
    show layerMid128 (kEdge128 (H1 m c) _ _) (kNorm _) (kNorm _) _ _ = _
    rw [edge128a, norm_src (m ((c : Thread Cert.KernelIdeal.nD Cert.KernelIdeal.τ).loc Cert.KernelIdeal.main_arg1)), norm_dst (m ((c : Thread Cert.KernelIdeal.nD Cert.KernelIdeal.τ).loc Cert.KernelIdeal.main_arg2))]
  have e3 : H3 m c = layerLast (rEdge128b (H2 m c) (m ((c : Thread Cert.KernelIdeal.nD Cert.KernelIdeal.τ).loc Cert.KernelIdeal.main_arg1)) (m ((c : Thread Cert.KernelIdeal.nD Cert.KernelIdeal.τ).loc Cert.KernelIdeal.main_arg2)))
      (val_main_v12 (F := Ideal) (m ((c : Thread Cert.KernelIdeal.nD Cert.KernelIdeal.τ).loc Cert.KernelIdeal.main_arg2))) (m ((c : Thread Cert.KernelIdeal.nD Cert.KernelIdeal.τ).loc Cert.KernelIdeal.main_arg8)) (m ((c : Thread Cert.KernelIdeal.nD Cert.KernelIdeal.τ).loc Cert.KernelIdeal.main_arg9)) := by
    show layerLast (kEdge128 (H2 m c) _ _) (kNorm _) _ _ = _
    rw [edge128b, norm_dst (m ((c : Thread Cert.KernelIdeal.nD Cert.KernelIdeal.τ).loc Cert.KernelIdeal.main_arg2))]
  show poolClassify (kPool (H3 m c) _) (kCount _) _ _ = _
  rw [pool_eq, count_eq, e3, e2, e1]
  rfl

end Cert.Bridge

end
-- ==== Proof.lean ====
/-
  A three-layer graph convolution with a mean pool and a linear classifier: the tiled kernel against the plain reference.
  At the extended reals both programs compute, from the same twelve arguments, the same array: every node row scaled by
  its source weight, three times "move the rows along the edges, weight each row by its destination weight, multiply into
  the layer's matrix, add the bias, cut the negative part (and, but for the last layer, weight the row by its source
  weight)", then each graph's mean row into the classifier. The kernel tiles the node axis into 20 blocks of 5000 rows,
  narrows the float format of the arrays it moves, and packs the two weight vectors side by side; none of that changes a
  value. No law that needs finiteness is used, so the precondition is never opened.

  The three frames are the generated ones (the reference's is its generated run with the result dropped); the ideal pass
  rewrote nothing, so the idealization conjunct is trivial; the value conjunct takes the kernel's run with its result
  buffer named, the chain of the kernel's stages, the reference's run, and the bridge between the two.
-/
import proofs.«112282_j74019466379909_2_alg».proof.Defs
import proofs.«112282_j74019466379909_2_alg».proof.Proof.Gen.Kernel
import proofs.«112282_j74019466379909_2_alg».proof.Proof.Gen.Kernel.Frame
import proofs.«112282_j74019466379909_2_alg».proof.Proof.Gen.KernelIdeal
import proofs.«112282_j74019466379909_2_alg».proof.Proof.Gen.KernelIdeal.Frame
import proofs.«112282_j74019466379909_2_alg».proof.Proof.Gen.ReferenceIdeal
import proofs.«112282_j74019466379909_2_alg».proof.Proof.Gen.Pre_finite_inputs
import proofs.«112282_j74019466379909_2_alg».proof.Proof.Gen.ReferenceIdeal.Run
import proofs.«112282_j74019466379909_2_alg».proof.Proof.Gen.ReferenceIdeal.Read
import proofs.«112282_j74019466379909_2_alg».proof.Proof.KernelRun
import proofs.«112282_j74019466379909_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ
theorem frame_ki : Cert.frame_KernelIdeal (hKernelIdeal := Cert.KernelIdeal.Gen.facts) (hPre_finite_inputs := Cert.Pre_finite_inputs.Gen.facts) :=
  fun m ρ _ => Cert.KernelIdeal.Gen.frame m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the result buffer at one function of the arguments (the kernel's chain, the reference's stages,
    the bridge), the arguments as launched. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Stage.kOut m c, ?_, ?_⟩
  · exact (θ_run Cert.KernelIdeal.defs _ _).mono (fun r h c =>
      ⟨(h c _ (Cert.KernelIdeal.Gen.mem_uc Cert.KernelIdeal.main_v69 (by decide))).trans (Cert.KernelIdeal.Stage.stage4 m ρ c),
       (h c _ (Cert.KernelIdeal.Gen.mem_uc Cert.KernelIdeal.main_arg0 (by decide))).trans (Cert.KernelIdeal.Gen.W10_main_arg0 m ρ c),
       (h c _ (Cert.KernelIdeal.Gen.mem_uc Cert.KernelIdeal.main_arg1 (by decide))).trans (Cert.KernelIdeal.Gen.W10_main_arg1 m ρ c),
       (h c _ (Cert.KernelIdeal.Gen.mem_uc Cert.KernelIdeal.main_arg2 (by decide))).trans (Cert.KernelIdeal.Gen.W10_main_arg2 m ρ c),
       (h c _ (Cert.KernelIdeal.Gen.mem_uc Cert.KernelIdeal.main_arg3 (by decide))).trans (Cert.KernelIdeal.Gen.W10_main_arg3 m ρ c),
       (h c _ (Cert.KernelIdeal.Gen.mem_uc Cert.KernelIdeal.main_arg4 (by decide))).trans (Cert.KernelIdeal.Gen.W10_main_arg4 m ρ c),
       (h c _ (Cert.KernelIdeal.Gen.mem_uc Cert.KernelIdeal.main_arg5 (by decide))).trans (Cert.KernelIdeal.Gen.W10_main_arg5 m ρ c),
       (h c _ (Cert.KernelIdeal.Gen.mem_uc Cert.KernelIdeal.main_arg6 (by decide))).trans (Cert.KernelIdeal.Gen.W10_main_arg6 m ρ c),
       (h c _ (Cert.KernelIdeal.Gen.mem_uc Cert.KernelIdeal.main_arg7 (by decide))).trans (Cert.KernelIdeal.Gen.W10_main_arg7 m ρ c),
       (h c _ (Cert.KernelIdeal.Gen.mem_uc Cert.KernelIdeal.main_arg8 (by decide))).trans (Cert.KernelIdeal.Gen.W10_main_arg8 m ρ c),
       (h c _ (Cert.KernelIdeal.Gen.mem_uc Cert.KernelIdeal.main_arg9 (by decide))).trans (Cert.KernelIdeal.Gen.W10_main_arg9 m ρ c),
       (h c _ (Cert.KernelIdeal.Gen.mem_uc Cert.KernelIdeal.main_arg10 (by decide))).trans (Cert.KernelIdeal.Gen.W10_main_arg10 m ρ c),
       (h c _ (Cert.KernelIdeal.Gen.mem_uc Cert.KernelIdeal.main_arg11 (by decide))).trans (Cert.KernelIdeal.Gen.W10_main_arg11 m ρ c)⟩)
      (Cert.KernelIdeal.Stage.run_all m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11⟩ := hagree c
    rw [Cert.ReferenceIdeal.Read.val_main_v90_eq, Cert.ReferenceIdeal.Stage.ref_value, a0, a1, a2, a3, a4, a5, a6, a7, a8, a9, a10, a11]
    exact (Cert.Bridge.out_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
